-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x256 : Shape := ⟨2, ![128, 256]⟩
abbrev S256 : Shape := ⟨1, ![256]⟩
abbrev S256x256 : Shape := ⟨2, ![256, 256]⟩
abbrev S256x16 : Shape := ⟨2, ![256, 16]⟩
abbrev S16 : Shape := ⟨1, ![16]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg8 : FVec F S256x16 .f32) (main_arg9 : FVec F S16 .f32) (main_v33 : IVec S_ 1) : IVec S_ 1 :=
  let main_v34 : FVec F S256x16 .f32 := Host.absf main_arg8
  let main_cst_12 : FVec F S_ .f32 := constant S_ .f32 0x7F800000#32
  let main_v35 : FVec F S256x16 .f32 := broadcastInDim S256x16 ![] bcast_S_S256x16 main_cst_12
  let main_v36 : IVec S256x16 1 := cmpf .olt main_v34 main_v35
  let main_c_13 : IVec S_ 1 := constantI S_ 1 1#1
  let main_v37 : IVec S_ 1 := (fun x v => Host.reduce IntOp.andi x v reducesTo_S256x16_S_d0_1 h_S_) main_v36 main_c_13
  let main_v38 : IVec S_ 1 := andi main_v33 main_v37
  let main_v39 : FVec F S16 .f32 := Host.absf main_arg9
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  main_v43

def fn_part1 {F : FTy → Type} [FloatOps F] (main_arg5 : FVec F S256 .f32) (main_arg6 : FVec F S256x256 .f32) (main_arg7 : FVec F S256 .f32) (main_arg8 : FVec F S256x16 .f32) (main_arg9 : FVec F S16 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x600000 32) (main_arg2 : FVec F S128x256 .f32) (main_arg3 : FVec F S256 .f32) (main_arg4 : FVec F S256x256 .f32) (main_arg5 : FVec F S256 .f32) (main_arg6 : FVec F S256x256 .f32) (main_arg7 : FVec F S256 .f32) (main_arg8 : FVec F S256x16 .f32) (main_arg9 : FVec F S16 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x600000 : Shape := ⟨2, ![2, 600000]⟩
abbrev S128x256 : Shape := ⟨2, ![128, 256]⟩
abbrev S256 : Shape := ⟨1, ![256]⟩
abbrev S256x256 : Shape := ⟨2, ![256, 256]⟩
abbrev S256x16 : Shape := ⟨2, ![256, 16]⟩
abbrev S16 : Shape := ⟨1, ![16]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S600000x256 : Shape := ⟨2, ![600000, 256]⟩
abbrev S1x16 : Shape := ⟨2, ![1, 16]⟩
abbrev S50000x16 : Shape := ⟨2, ![50000, 16]⟩
abbrev S2000x16 : Shape := ⟨2, ![2000, 16]⟩
abbrev S2000 : Shape := ⟨1, ![2000]⟩
abbrev S2000x1 : Shape := ⟨2, ![2000, 1]⟩

abbrev nBuf : Space → Nat
  | .hbm => 46
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x16, .f32⟩
  | .hbm, ⟨9, _⟩ => ⟨S16, .f32⟩
  | .hbm, ⟨10, _⟩ => ⟨S1x600000, .i32⟩
  | .hbm, ⟨11, _⟩ => ⟨S600000, .i32⟩
  | .hbm, ⟨12, _⟩ => ⟨S1x600000, .i32⟩
  | .hbm, ⟨13, _⟩ => ⟨S600000, .i32⟩
  | .hbm, ⟨14, _⟩ => ⟨S_, .i32⟩
  | .hbm, ⟨15, _⟩ => ⟨S600000, .i32⟩
  | .hbm, ⟨16, _⟩ => ⟨S600000, .i1⟩
  | .hbm, ⟨17, _⟩ => ⟨S_, .i32⟩
  | .hbm, ⟨18, _⟩ => ⟨S600000, .i32⟩
  | .hbm, ⟨19, _⟩ => ⟨S600000, .i32⟩
  | .hbm, ⟨20, _⟩ => ⟨S600000, .i32⟩
  | .hbm, ⟨21, _⟩ => ⟨S600000x1, .i32⟩
  | .hbm, ⟨22, _⟩ => ⟨S600000x128, .f32⟩
  | .hbm, ⟨23, _⟩ => ⟨S_, .f32⟩
  | .hbm, ⟨24, _⟩ => ⟨S50000x128, .f32⟩
  | .hbm, ⟨25, _⟩ => ⟨S600000x1, .i32⟩
  | .hbm, ⟨26, _⟩ => ⟨S50000x128, .f32⟩
  | .hbm, ⟨27, _⟩ => ⟨S1x256, .f32⟩
  | .hbm, ⟨28, _⟩ => ⟨S1x256, .f32⟩
  | .hbm, ⟨29, _⟩ => ⟨S50000x256, .f32⟩
  | .hbm, ⟨30, _⟩ => ⟨S_, .i32⟩
  | .hbm, ⟨31, _⟩ => ⟨S600000, .i32⟩
  | .hbm, ⟨32, _⟩ => ⟨S600000, .i1⟩
  | .hbm, ⟨33, _⟩ => ⟨S_, .i32⟩
  | .hbm, ⟨34, _⟩ => ⟨S600000, .i32⟩
  | .hbm, ⟨35, _⟩ => ⟨S600000, .i32⟩
  | .hbm, ⟨36, _⟩ => ⟨S600000, .i32⟩
  | .hbm, ⟨37, _⟩ => ⟨S600000x1, .i32⟩
  | .hbm, ⟨38, _⟩ => ⟨S600000x256, .f32⟩
  | .hbm, ⟨39, _⟩ => ⟨S_, .f32⟩
  | .hbm, ⟨40, _⟩ => ⟨S50000x256, .f32⟩
  | .hbm, ⟨41, _⟩ => ⟨S600000x1, .i32⟩
  | .hbm, ⟨42, _⟩ => ⟨S50000x256, .f32⟩
  | .hbm, ⟨43, _⟩ => ⟨S1x256, .f32⟩
  | .hbm, ⟨44, _⟩ => ⟨S1x16, .f32⟩
  | .hbm, ⟨45, _⟩ => ⟨S50000x16, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S256x256, .f32⟩
  | .local _ .vmem, ⟨15, _⟩ => ⟨S1x256, .f32⟩
  | .local _ .vmem, ⟨16, _⟩ => ⟨S256x16, .f32⟩
  | .local _ .vmem, ⟨17, _⟩ => ⟨S1x16, .f32⟩
  | .local _ .vmem, ⟨18, _⟩ => ⟨S2000x16, .f32⟩
  | .local _ .vmem, ⟨19, _⟩ => ⟨S2000x16, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_1 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x16 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  shapeCasts_S16_S1x16 : S16.ShapeCasts S1x16
  shapeCasts_S2000x256_S2000x256 : S2000x256.ShapeCasts S2000x256
  inb_S256x16_S256x16_0_0 : ∀ a, (![0, 0] : Fin 2 → Nat) a + S256x16.size a ≤ S256x16.size a
  h_S256x16 : 0 < S256x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  reduces_S2000x16_S2000 : S2000x16.Reduces [1] S2000
  shapeCasts_S2000_S2000x1 : S2000.ShapeCasts S2000x1
  broadcasts_S2000x1_S2000x16 : S2000x1.Broadcasts S2000x16
  inb_S2000x16_S2000x16_0_0 : ∀ a, (![0, 0] : Fin 2 → Nat) a + S2000x16.size a ≤ S2000x16.size a
  h_S2000x16 : 0 < S2000x16.numel
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x128_S128x256_S2000x256_1_0_0_1_n_n_wf : DotDims.WF S2000x128 S128x256 S2000x256 [1] [0] [0] [1] [] []
  dot_S2000x256_S256x256_S2000x256_1_0_0_1_n_n_wf : DotDims.WF S2000x256 S256x256 S2000x256 [1] [0] [0] [1] [] []
  gather_S50000x256_S600000x1_S600000x256_1_0_n_n_0_1_1256_wf : GatherDims.WF S50000x256 S600000x1 S600000x256 [1] [0] [] [0] [] 1 ![1, 256]
  scatter_S50000x256_S600000x1_S600000x256_1_0_0_1_wf : ScatterDims.WF S50000x256 S600000x1 S600000x256 [1] [0] [0] 1
  dot_S2000x256_S256x16_S2000x16_1_0_0_1_n_n_wf : DotDims.WF S2000x256 S256x16 S2000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S50000x256.size a
  hwx0_6 : ∀ i : grid0.Coords, EltTy.bits .f32 = 32 ∨ (Rect.block (s := S50000x256) S2000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x16.size a ≤ S256x16.size a
  hwx1_4 : ∀ i : grid1.Coords, EltTy.bits .f32 = 32 ∨ (Rect.block (s := S256x16) S256x16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x16.size a ≤ S1x16.size a
  hwx1_5 : ∀ i : grid1.Coords, EltTy.bits .f32 = 32 ∨ (Rect.block (s := S1x16) S1x16.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x16.size a ≤ S50000x16.size a
  hwx1_6 : ∀ i : grid1.Coords, EltTy.bits .f32 = 32 ∨ (Rect.block (s := S50000x16) S2000x16.size (cc1_transform_6 i) (hinb1_6 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S600000x1_S600000x256_1_0_n_n_0_1_1256 : GatherDims S50000x256 S600000x1 S600000x256 where
  offsetDims := [1]
  collapsedSliceDims := [0]
  operandBatchingDims := []
  startIndicesBatchingDims := []
  startIndexMap := [0]
  indexVectorDim := 1
  sliceSizes := ![1, 256]
  wf := gather_S50000x256_S600000x1_S600000x256_1_0_n_n_0_1_1256_wf
def scatter_S50000x256_S600000x1_S600000x256_1_0_0_1 : ScatterDims S50000x256 S600000x1 S600000x256 where
  updateWindowDims := [1]
  insertedWindowDims := [0]
  scatterDimsToOperandDims := [0]
  indexVectorDim := 1
  wf := scatter_S50000x256_S600000x1_S600000x256_1_0_0_1_wf
def dot_S2000x256_S256x16_S2000x16_1_0_0_1_n_n : DotDims S2000x256 S256x16 S2000x16 where
  lhsContracting := [1]
  rhsContracting := [0]
  lhsNonContracting := [0]
  rhsNonContracting := [1]
  lhsBatch := []
  rhsBatch := []
  wf := dot_S2000x256_S256x16_S2000x16_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S2000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S256x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S2000x16.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x256 : Shape := ⟨2, ![128, 256]⟩
abbrev S256 : Shape := ⟨1, ![256]⟩
abbrev S256x256 : Shape := ⟨2, ![256, 256]⟩
abbrev S256x16 : Shape := ⟨2, ![256, 16]⟩
abbrev S16 : Shape := ⟨1, ![16]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000x256 : Shape := ⟨2, ![50000, 256]⟩
abbrev S1x256 : Shape := ⟨2, ![1, 256]⟩
abbrev S600000x256 : Shape := ⟨2, ![600000, 256]⟩
abbrev S50000x16 : Shape := ⟨2, ![50000, 16]⟩
abbrev S1x16 : Shape := ⟨2, ![1, 16]⟩
abbrev S50000 : Shape := ⟨1, ![50000]⟩
abbrev S50000x1 : Shape := ⟨2, ![50000, 1]⟩

abbrev nBuf : Space → Nat
  | .hbm => 82
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x16, .f32⟩
  | .hbm, ⟨9, _⟩ => ⟨S16, .f32⟩
  | .hbm, ⟨10, _⟩ => ⟨S1x600000, .i32⟩
  | .hbm, ⟨11, _⟩ => ⟨S600000, .i32⟩
  | .hbm, ⟨12, _⟩ => ⟨S1x600000, .i32⟩
  | .hbm, ⟨13, _⟩ => ⟨S600000, .i32⟩
  | .hbm, ⟨14, _⟩ => ⟨S_, .i32⟩
  | .hbm, ⟨15, _⟩ => ⟨S600000, .i32⟩
  | .hbm, ⟨16, _⟩ => ⟨S600000, .i1⟩
  | .hbm, ⟨17, _⟩ => ⟨S_, .i32⟩
  | .hbm, ⟨18, _⟩ => ⟨S600000, .i32⟩
  | .hbm, ⟨19, _⟩ => ⟨S600000, .i32⟩
  | .hbm, ⟨20, _⟩ => ⟨S600000, .i32⟩
  | .hbm, ⟨21, _⟩ => ⟨S600000x1, .i32⟩
  | .hbm, ⟨22, _⟩ => ⟨S600000x128, .f32⟩
  | .hbm, ⟨23, _⟩ => ⟨S_, .f32⟩
  | .hbm, ⟨24, _⟩ => ⟨S50000x128, .f32⟩
  | .hbm, ⟨25, _⟩ => ⟨S600000x1, .i32⟩
  | .hbm, ⟨26, _⟩ => ⟨S50000x128, .f32⟩
  | .hbm, ⟨27, _⟩ => ⟨S50000x128, .f32⟩
  | .hbm, ⟨28, _⟩ => ⟨S50000x256, .f32⟩
  | .hbm, ⟨29, _⟩ => ⟨S1x256, .f32⟩
  | .hbm, ⟨30, _⟩ => ⟨S50000x256, .f32⟩
  | .hbm, ⟨31, _⟩ => ⟨S50000x256, .f32⟩
  | .hbm, ⟨32, _⟩ => ⟨S_, .f32⟩
  | .hbm, ⟨33, _⟩ => ⟨S50000x256, .f32⟩
  | .hbm, ⟨34, _⟩ => ⟨S50000x256, .f32⟩
  | .hbm, ⟨35, _⟩ => ⟨S50000x256, .f32⟩
  | .hbm, ⟨36, _⟩ => ⟨S1x256, .f32⟩
  | .hbm, ⟨37, _⟩ => ⟨S50000x256, .f32⟩
  | .hbm, ⟨38, _⟩ => ⟨S50000x256, .f32⟩
  | .hbm, ⟨39, _⟩ => ⟨S_, .f32⟩
  | .hbm, ⟨40, _⟩ => ⟨S50000x256, .f32⟩
  | .hbm, ⟨41, _⟩ => ⟨S50000x256, .f32⟩
  | .hbm, ⟨42, _⟩ => ⟨S_, .i32⟩
  | .hbm, ⟨43, _⟩ => ⟨S600000, .i32⟩
  | .hbm, ⟨44, _⟩ => ⟨S600000, .i1⟩
  | .hbm, ⟨45, _⟩ => ⟨S_, .i32⟩
  | .hbm, ⟨46, _⟩ => ⟨S600000, .i32⟩
  | .hbm, ⟨47, _⟩ => ⟨S600000, .i32⟩
  | .hbm, ⟨48, _⟩ => ⟨S600000, .i32⟩
  | .hbm, ⟨49, _⟩ => ⟨S600000x1, .i32⟩
  | .hbm, ⟨50, _⟩ => ⟨S600000x256, .f32⟩
  | .hbm, ⟨51, _⟩ => ⟨S_, .f32⟩
  | .hbm, ⟨52, _⟩ => ⟨S50000x256, .f32⟩
  | .hbm, ⟨53, _⟩ => ⟨S600000x1, .i32⟩
  | .hbm, ⟨54, _⟩ => ⟨S50000x256, .f32⟩
  | .hbm, ⟨55, _⟩ => ⟨S50000x256, .f32⟩
  | .hbm, ⟨56, _⟩ => ⟨S50000x256, .f32⟩
  | .hbm, ⟨57, _⟩ => ⟨S1x256, .f32⟩
  | .hbm, ⟨58, _⟩ => ⟨S50000x256, .f32⟩
  | .hbm, ⟨59, _⟩ => ⟨S50000x256, .f32⟩
  | .hbm, ⟨60, _⟩ => ⟨S_, .f32⟩
  | .hbm, ⟨61, _⟩ => ⟨S50000x256, .f32⟩
  | .hbm, ⟨62, _⟩ => ⟨S50000x256, .f32⟩
  | .hbm, ⟨63, _⟩ => ⟨S50000x16, .f32⟩
  | .hbm, ⟨64, _⟩ => ⟨S1x16, .f32⟩
  | .hbm, ⟨65, _⟩ => ⟨S50000x16, .f32⟩
  | .hbm, ⟨66, _⟩ => ⟨S50000x16, .f32⟩
  | .hbm, ⟨67, _⟩ => ⟨S_, .f32⟩
  | .hbm, ⟨68, _⟩ => ⟨S50000, .f32⟩
  | .hbm, ⟨69, _⟩ => ⟨S_, .f32⟩
  | .hbm, ⟨70, _⟩ => ⟨S50000, .f32⟩
  | .hbm, ⟨71, _⟩ => ⟨S50000, .f32⟩
  | .hbm, ⟨72, _⟩ => ⟨S50000x1, .f32⟩
  | .hbm, ⟨73, _⟩ => ⟨S50000x16, .f32⟩
  | .hbm, ⟨74, _⟩ => ⟨S50000x16, .f32⟩
  | .hbm, ⟨75, _⟩ => ⟨S50000x16, .f32⟩
  | .hbm, ⟨76, _⟩ => ⟨S_, .f32⟩
  | .hbm, ⟨77, _⟩ => ⟨S50000, .f32⟩
  | .hbm, ⟨78, _⟩ => ⟨S50000x1, .f32⟩
  | .hbm, ⟨79, _⟩ => ⟨S50000x1, .f32⟩
  | .hbm, ⟨80, _⟩ => ⟨S50000x16, .f32⟩
  | .hbm, ⟨81, _⟩ => ⟨S50000x16, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call0_cst : Ref sig .tc := ⟨.hbm, 32, rfl⟩
abbrev main_call0_v0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call1_cst : Ref sig .tc := ⟨.hbm, 39, rfl⟩
abbrev main_call1_v0 : Ref sig .tc := ⟨.hbm, 40, rfl⟩
abbrev main_v24 : Ref sig .tc := ⟨.hbm, 41, rfl⟩
abbrev main_c_1 : Ref sig .tc := ⟨.hbm, 42, rfl⟩
abbrev main_v25 : Ref sig .tc := ⟨.hbm, 43, rfl⟩
abbrev main_v26 : Ref sig .tc := ⟨.hbm, 44, rfl⟩
abbrev main_c_2 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_3 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_call2_cst : Ref sig .tc := ⟨.hbm, 60, rfl⟩
abbrev main_call2_v0 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_call3_cst : Ref sig .tc := ⟨.hbm, 67, rfl⟩
abbrev main_call3_v0 : Ref sig .tc := ⟨.hbm, 68, rfl⟩
abbrev main_call3_cst_0 : Ref sig .tc := ⟨.hbm, 69, rfl⟩
abbrev main_call3_v1 : Ref sig .tc := ⟨.hbm, 70, rfl⟩
abbrev main_call3_v2 : Ref sig .tc := ⟨.hbm, 71, rfl⟩
abbrev main_call3_v3 : Ref sig .tc := ⟨.hbm, 72, rfl⟩
abbrev main_call3_v4 : Ref sig .tc := ⟨.hbm, 73, rfl⟩
abbrev main_call3_v5 : Ref sig .tc := ⟨.hbm, 74, rfl⟩
abbrev main_call3_v6 : Ref sig .tc := ⟨.hbm, 75, rfl⟩
abbrev main_call3_cst_1 : Ref sig .tc := ⟨.hbm, 76, rfl⟩
abbrev main_call3_v7 : Ref sig .tc := ⟨.hbm, 77, rfl⟩
abbrev main_call3_v8 : Ref sig .tc := ⟨.hbm, 78, rfl⟩
abbrev main_call3_v9 : Ref sig .tc := ⟨.hbm, 79, rfl⟩
abbrev main_call3_v10 : Ref sig .tc := ⟨.hbm, 80, rfl⟩
abbrev main_v45 : Ref sig .tc := ⟨.hbm, 81, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  reducesTo_S50000x16_S50000_d1 : S50000x16.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x16_0_1 : S50000x1.BroadcastsInDim S50000x16 (![0, 1] : Fin 2 → Fin S50000x16.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x256_S50000x256_1_0_0_1_n_n_wf : DotDims.WF S50000x128 S128x256 S50000x256 [1] [0] [0] [1] [] []
  dot_S50000x256_S256x256_S50000x256_1_0_0_1_n_n_wf : DotDims.WF S50000x256 S256x256 S50000x256 [1] [0] [0] [1] [] []
  gather_S50000x256_S600000x1_S600000x256_1_0_n_n_0_1_1256_wf : GatherDims.WF S50000x256 S600000x1 S600000x256 [1] [0] [] [0] [] 1 ![1, 256]
  scatter_S50000x256_S600000x1_S600000x256_1_0_0_1_wf : ScatterDims.WF S50000x256 S600000x1 S600000x256 [1] [0] [0] 1
  dot_S50000x256_S256x16_S50000x16_1_0_0_1_n_n_wf : DotDims.WF S50000x256 S256x16 S50000x16 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S600000x1_S600000x256_1_0_n_n_0_1_1256 : GatherDims S50000x256 S600000x1 S600000x256 where
  offsetDims := [1]
  collapsedSliceDims := [0]
  operandBatchingDims := []
  startIndicesBatchingDims := []
  startIndexMap := [0]
  indexVectorDim := 1
  sliceSizes := ![1, 256]
  wf := gather_S50000x256_S600000x1_S600000x256_1_0_n_n_0_1_1256_wf
def scatter_S50000x256_S600000x1_S600000x256_1_0_0_1 : ScatterDims S50000x256 S600000x1 S600000x256 where
  updateWindowDims := [1]
  insertedWindowDims := [0]
  scatterDimsToOperandDims := [0]
  indexVectorDim := 1
  wf := scatter_S50000x256_S600000x1_S600000x256_1_0_0_1_wf
def dot_S50000x256_S256x16_S50000x16_1_0_0_1_n_n : DotDims S50000x256 S256x16 S50000x16 where
  lhsContracting := [1]
  rhsContracting := [0]
  lhsNonContracting := [0]
  rhsNonContracting := [1]
  lhsBatch := []
  rhsBatch := []
  wf := dot_S50000x256_S256x16_S50000x16_1_0_0_1_n_n_wf

class Facts : Prop extends Facts₀ where

variable [Facts]
-- ==== Proof.Spec.lean ====
/-
  The two stages of the network, one node (one row) at a time, as plain functions on extended reals.

  A graph-isomorphism layer sends a node's feature row `z` (the node's own features plus the sum of its
  in-neighbours' features) through two dense layers, each `v ↦ v · W + b`, with the rectifier `max · 0`
  after the first (and, in the first stage, after the second too).  The last stage ends in a
  log-softmax over the 16 classes: subtract the row's maximum, then subtract the logarithm of the sum
  of the exponentials of what is left.

  Both programs compute exactly these row functions: the kernel on blocks of 2000 rows, the
  reference on all 50000 rows at once.  A matrix product read at one output entry is the finite sum
  over the contracted index, whatever the tiling; a change of float format is the identity on the
  extended reals.  So no algebraic law beyond the meaning of the operations is needed, and in
  particular nothing here needs the inputs to be finite.
-/
import Idealize.ShloMosaic.PureOps.Ideal
import Idealize.ShloMosaic.PureOps.Ideal.Laws

noncomputable section

namespace Cert.Spec

open Idealize.ShloMosaic

/-- The float word of `0.0`, kept as the word: both programs carry the same word. -/
abbrev z0 : EReal := Ideal.ofBits .f32 0x00000000#32
/-- The float word of `-∞`, the value a row maximum starts from. -/
abbrev ninf : EReal := Ideal.ofBits .f32 0xFF800000#32

/-- A dense layer at output feature `n`: the row times column `n` of the weights, plus the bias. -/
def dense {K N : Nat} (z : Fin K → EReal) (w : Fin K → Fin N → EReal) (b : Fin N → EReal) (n : Fin N) : EReal :=
  (∑ k : Fin K, z k * w k n) + b n

/-- A dense layer followed by the rectifier. -/
def denseRelu {K N : Nat} (z : Fin K → EReal) (w : Fin K → Fin N → EReal) (b : Fin N → EReal) (n : Fin N) : EReal :=
  max (dense z w b n) z0

/-- Stage one of a node: two rectified dense layers, 128 → 256 → 256. -/
def stage1 (z : Fin 128 → EReal) (w1 : Fin 128 → Fin 256 → EReal) (b1 : Fin 256 → EReal)
    (w2 : Fin 256 → Fin 256 → EReal) (b2 : Fin 256 → EReal) : Fin 256 → EReal :=
  denseRelu (denseRelu z w1 b1) w2 b2

/-- The class scores of a node: a rectified dense layer 256 → 256, then a dense layer 256 → 16. -/
def logits (z : Fin 256 → EReal) (w1 : Fin 256 → Fin 256 → EReal) (b1 : Fin 256 → EReal)
    (w2 : Fin 256 → Fin 16 → EReal) (b2 : Fin 16 → EReal) : Fin 16 → EReal :=
  dense (denseRelu z w1 b1) w2 b2

/-- The largest of a node's 16 scores (the maximum started from `-∞`). -/
def rowMax (o : Fin 16 → EReal) : EReal := (Finset.univ : Finset (Fin 16)).fold max ninf o

/-- The log-softmax of a node's scores at class `q`. -/
def logSoftmax (o : Fin 16 → EReal) (q : Fin 16) : EReal :=
  (o q - rowMax o) - Ideal.log (∑ q' : Fin 16, Ideal.exp (o q' - rowMax o))

/-- Stage two of a node: its class scores, log-softmaxed. -/
def stage2 (z : Fin 256 → EReal) (w1 : Fin 256 → Fin 256 → EReal) (b1 : Fin 256 → EReal)
    (w2 : Fin 256 → Fin 16 → EReal) (b2 : Fin 16 → EReal) : Fin 16 → EReal :=
  logSoftmax (logits z w1 b1 w2 b2)

/-- A maximum started from `b` is at least `b`: taking the maximum with `b` once more changes nothing. -/
theorem max_fold_max_self {ι : Type} (s : Finset ι) (b : EReal) (f : ι → EReal) :
    max b (s.fold max b f) = s.fold max b f :=
  max_eq_right ((Finset.le_fold_max b).mpr (Or.inl le_rfl))

end Cert.Spec

end
-- ==== Proof.LibKeepdims.lean ====
/-
  Column vectors read at an index: the three layout steps a row reduction with `keepdims` goes through.

  A row reduction of an `[a, b]` array gives a vector `[a]`; `keepdims` views it as a column `[a, 1]`
  (row-major position `i * 1 + 0 = i`), and using it against the `[a, b]` array again broadcasts that
  column along the rows, every entry of row `p` reading the column's entry `p`.
-/
import Idealize.ShloMosaic.Lib.Pipeline.Value
import Idealize.ShloMosaic.Lib.ValueIdx

namespace Cert.LibKeepdims

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast back to the vector `[a]` reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.LibKeepdims
-- ==== Proof.KPay.lean ====
/-
  The two bodies of the kernel, read one entry at a time.

  Each body works on a block of 2000 node rows.  Entry (p, q) of what a body stores depends on row p of
  its two input blocks only (the node's own features and the sum of its in-neighbours' features), on
  the weight matrices and on the bias rows:
  • a matrix product accumulated into zero, read at (p, q), is the sum over the contracted index k of
    the left operand at (p, k) times the right operand at (k, q); narrowing an operand to another float
    format changes nothing on the extended reals;
  • a bias row [1, N] broadcast down the block reads, at (p, q), the row's entry (0, q);
  • the rectifier is the maximum with the word of 0.0;
  • in the second body the maximum and the sum over the 16 lanes of row p are a fold of `max` from the
    word of -∞ and a plain finite sum (the zero the sum starts from adds nothing); each is kept as a
    column [2000, 1] and broadcast back along the rows, so every entry of row p reads the one value of
    row p.
  So entry (p, q) of the first body is stage one of node p at feature q, and entry (p, q) of the second
  body is stage two (the log-softmax of the class scores) of node p at class q.
-/
import proofs.«121736_j41652592836734_1_alg».proof.Proof.Gen.KernelIdeal.Skeleton
import proofs.«121736_j41652592836734_1_alg».proof.Proof.Spec
import Idealize.ShloMosaic.Lib.ValueIdx
import Idealize.ShloMosaic.Lib.ValueLayout
import Idealize.ShloMosaic.Lib.Pipeline.Value
import Idealize.ShloMosaic.PureOps.Ideal.Laws
import proofs.«121736_j41652592836734_1_alg».proof.Proof.LibKeepdims

noncomputable section

namespace Cert.KernelIdeal.Pay

open Cert.KernelIdeal Cert.KernelIdeal.Gen Idealize.ShloMosaic Idealize.ShloMosaic.ValueIdx Cert.LibKeepdims

/-! ## A matrix product at an entry -/

/-- A product of an [m, k] block with a [k, n] block, contracted over the one shared axis and
    accumulated into zero, read at entry (p, q): the sum over the shared axis of row p times column q.
    The hypotheses say what the dimension numbers are: one contracted axis of extent k, axis 1 of the
    left operand against axis 0 of the right one, and the two free axes read the entry's coordinates. -/
theorem plainMatmul_apply {m k n : ℕ} {φ₁ φ₂ : FTy}
    (D : DotDims ⟨2, ![m, k]⟩ ⟨2, ![k, n]⟩ ⟨2, ![m, n]⟩)
    (hr : D.contr.rank = 1) (hs : D.contr.size ⟨0, by omega⟩ = k)
    (hlc : D.lhsContracting = [1]) (hrc : D.rhsContracting = [0])
    (hl0 : ∀ j c, (D.lhsIdx j c 0).val = (j 0).val) (hr1 : ∀ j c, (D.rhsIdx j c 1).val = (j 1).val)
    (a : FVec Ideal ⟨2, ![m, k]⟩ φ₁) (b : FVec Ideal ⟨2, ![k, n]⟩ φ₂) (p : Fin m) (q : Fin n) :
    matmul D none a b (constant (F := Ideal) ⟨2, ![m, n]⟩ .f32 0x00000000#32) (ix2 p q)
      = ∑ i : Fin k, a (ix2 p i) * b (ix2 i q) := by
  simp only [matmul]
  rw [Ideal.matmul_constant_zero_apply, ← Equiv.sum_comp (contrEquiv1 D k hr hs).symm]
  refine Finset.sum_congr rfl fun i _ => ?_
  have hi := contrEquiv1_symm_val D k hr hs i
  -- the left operand is read at (p, i) …
  have el : D.lhsIdx (ix2 p q) ((contrEquiv1 D k hr hs).symm i) = ix2 p i := funext fun c => Fin.ext (by
    match c with
    | ⟨0, _⟩ => exact hl0 _ _
    | ⟨1, _⟩ => exact (D.lhsIdx_val_of_single hlc _ _).trans hi)
  -- … and the right operand at (i, q)
  have er : D.rhsIdx (ix2 p q) ((contrEquiv1 D k hr hs).symm i) = ix2 i q := funext fun c => Fin.ext (by
    match c with
    | ⟨0, _⟩ => exact (D.rhsIdx_val_of_single hrc _ _).trans hi
    | ⟨1, _⟩ => exact hr1 _ _)
  rw [el, er]

/-- The [2000, 128] × [128, 256] product at (p, q): the sum over the 128 input features. -/
theorem matmul_128_256_apply (a : FVec Ideal S2000x128 .bf16) (b : FVec Ideal S128x256 .bf16) (p : Fin 2000) (q : Fin 256) :
    matmul dot_S2000x128_S128x256_S2000x256_1_0_0_1_n_n none a b (constant (F := Ideal) S2000x256 .f32 0x00000000#32) (ix2 p q)
      = ∑ i : Fin 128, a (ix2 p i) * b (ix2 i q) :=
  plainMatmul_apply dot_S2000x128_S128x256_S2000x256_1_0_0_1_n_n rfl rfl rfl rfl
    (fun j c => by
      unfold DotDims.lhsIdx
      rw [dif_neg (show ¬(0 : Fin S2000x128.rank) ∈ dot_S2000x128_S128x256_S2000x256_1_0_0_1_n_n.lhsBatch by decide),
        dif_pos (show (0 : Fin S2000x128.rank) ∈ dot_S2000x128_S128x256_S2000x256_1_0_0_1_n_n.lhsNonContracting by decide)]
      rfl)
    (fun j c => by
      unfold DotDims.rhsIdx
      rw [dif_neg (show ¬(1 : Fin S128x256.rank) ∈ dot_S2000x128_S128x256_S2000x256_1_0_0_1_n_n.rhsBatch by decide),
        dif_pos (show (1 : Fin S128x256.rank) ∈ dot_S2000x128_S128x256_S2000x256_1_0_0_1_n_n.rhsNonContracting by decide)]
      rfl)
    a b p q

/-- The [2000, 256] × [256, 256] product at (p, q): the sum over the 256 hidden features. -/
theorem matmul_256_256_apply (a : FVec Ideal S2000x256 .bf16) (b : FVec Ideal S256x256 .bf16) (p : Fin 2000) (q : Fin 256) :
    matmul dot_S2000x256_S256x256_S2000x256_1_0_0_1_n_n none a b (constant (F := Ideal) S2000x256 .f32 0x00000000#32) (ix2 p q)
      = ∑ i : Fin 256, a (ix2 p i) * b (ix2 i q) :=
  plainMatmul_apply dot_S2000x256_S256x256_S2000x256_1_0_0_1_n_n rfl rfl rfl rfl
    (fun j c => by
      unfold DotDims.lhsIdx
      rw [dif_neg (show ¬(0 : Fin S2000x256.rank) ∈ dot_S2000x256_S256x256_S2000x256_1_0_0_1_n_n.lhsBatch by decide),
        dif_pos (show (0 : Fin S2000x256.rank) ∈ dot_S2000x256_S256x256_S2000x256_1_0_0_1_n_n.lhsNonContracting by decide)]
      rfl)
    (fun j c => by
      unfold DotDims.rhsIdx
      rw [dif_neg (show ¬(1 : Fin S256x256.rank) ∈ dot_S2000x256_S256x256_S2000x256_1_0_0_1_n_n.rhsBatch by decide),
        dif_pos (show (1 : Fin S256x256.rank) ∈ dot_S2000x256_S256x256_S2000x256_1_0_0_1_n_n.rhsNonContracting by decide)]
      rfl)
    a b p q

/-- The [2000, 256] × [256, 16] product at (p, q): the sum over the 256 hidden features. -/
theorem matmul_256_16_apply (a : FVec Ideal S2000x256 .bf16) (b : FVec Ideal S256x16 .bf16) (p : Fin 2000) (q : Fin 16) :
    matmul dot_S2000x256_S256x16_S2000x16_1_0_0_1_n_n none a b (constant (F := Ideal) S2000x16 .f32 0x00000000#32) (ix2 p q)
      = ∑ i : Fin 256, a (ix2 p i) * b (ix2 i q) :=
  plainMatmul_apply dot_S2000x256_S256x16_S2000x16_1_0_0_1_n_n rfl rfl rfl rfl
    (fun j c => by
      unfold DotDims.lhsIdx
      rw [dif_neg (show ¬(0 : Fin S2000x256.rank) ∈ dot_S2000x256_S256x16_S2000x16_1_0_0_1_n_n.lhsBatch by decide),
        dif_pos (show (0 : Fin S2000x256.rank) ∈ dot_S2000x256_S256x16_S2000x16_1_0_0_1_n_n.lhsNonContracting by decide)]
      rfl)
    (fun j c => by
      unfold DotDims.rhsIdx
      rw [dif_neg (show ¬(1 : Fin S256x16.rank) ∈ dot_S2000x256_S256x16_S2000x16_1_0_0_1_n_n.rhsBatch by decide),
        dif_pos (show (1 : Fin S256x16.rank) ∈ dot_S2000x256_S256x16_S2000x16_1_0_0_1_n_n.rhsNonContracting by decide)]
      rfl)
    a b p q

/-! ## The exponential, the logarithm and the two lane reductions at an entry -/

/-- The exponential of a block, entry by entry. -/
theorem exp_at {s : Shape} {φ : FTy} (x : FVec Ideal s φ) (i : s.Idx) :
    Idealize.ShloMosaic.exp x i = Ideal.exp (x i) := rfl

/-- The logarithm of a block, entry by entry. -/
theorem log_at {s : Shape} {φ : FTy} (x : FVec Ideal s φ) (i : s.Idx) :
    Idealize.ShloMosaic.log x i = Ideal.log (x i) := rfl

/-- Row p of a [2000, 16] block and its 16 lanes: the reduced index p with lane k put back is (p, k). -/
theorem lift_row (h : S2000x16.Reduces [1] S2000) (p : Fin 2000) (k : Fin 16) :
    h.lift (ix1 p) k = ix2 p k :=
  funext fun c => Fin.ext (by
    match c with
    | ⟨0, _⟩ => rfl
    | ⟨1, _⟩ => rfl)

/-- The maximum over the 16 lanes of row p, started from the word of -∞ (`hφ`: the format is one a
    float reduction takes; `hacc`: the start word is the maximum's neutral word, which is that word
    itself). -/
theorem laneMax_apply (x : FVec Ideal S2000x16 .f32) (h : S2000x16.Reduces [1] S2000) (hφ : FTy.f32 = FTy.f32 ∨ FTy.f32 = FTy.bf16)
    (hacc : (0xFF800000#32 : BitVec 32) = 0xFF800000#32) (p : Fin 2000) :
    multiReduction (F := Ideal) .maximumf [1] S2000 x 0xFF800000#32 h hφ hacc (ix1 p)
      = (Finset.univ : Finset (Fin 16)).fold max Cert.Spec.ninf (fun k => x (ix2 p k)) :=
  (Ideal.multiReduction_maximumf_single x 0xFF800000#32 h hφ hacc (ix1 p)).trans
    (congrArg (Finset.univ.fold max _) (funext fun k => congrArg x (lift_row h p k)))

/-- The sum over the 16 lanes of row p; the zero word it starts from is the sum's neutral word and adds
    nothing. -/
theorem laneSum_apply (x : FVec Ideal S2000x16 .f32) (h : S2000x16.Reduces [1] S2000) (hφ : FTy.f32 = FTy.f32 ∨ FTy.f32 = FTy.bf16)
    (hacc : (0x00000000#32 : BitVec 32) = 0x00000000#32) (p : Fin 2000) :
    multiReduction (F := Ideal) .add [1] S2000 x 0x00000000#32 h hφ hacc (ix1 p)
      = ∑ k : Fin 16, x (ix2 p k) :=
  (Ideal.multiReduction_add_single x 0x00000000#32 h hφ hacc (ix1 p)).trans
    (Finset.sum_congr rfl fun k _ => congrArg x (lift_row h p k))

/-! ## The two bodies at an entry -/

/-- Entry (p, q) of the first body: stage one of node p (its row of the two input blocks added) at
    output feature q.  The first product's entry (p, i) is the sum over the 128 input features, the bias
    row adds its entry i, the rectifier takes the maximum with 0.0; the second product sums those 256
    values against column q of the second weights, and bias and rectifier follow again. -/
theorem pay0_apply (v0 v1 : Vec Ideal S2000x128 .f32) (v5 : Vec Ideal S128x256 .f32) (v8 : Vec Ideal S1x256 .f32)
    (v15 : Vec Ideal S256x256 .f32) (v18 : Vec Ideal S1x256 .f32) (p : Fin 2000) (q : Fin 256) :
    k0_pay1 (F := Ideal) v0 v1 v5 v8 v15 v18 (ix2 p q)
      = Cert.Spec.stage1 (fun k : Fin 128 => v0 (ix2 p k) + v1 (ix2 p k)) (fun (k : Fin 128) (n : Fin 256) => v5 (ix2 k n))
          (fun n : Fin 256 => v8 (ix2 (0 : Fin 1) n)) (fun (k : Fin 256) (n : Fin 256) => v15 (ix2 k n)) (fun n : Fin 256 => v18 (ix2 (0 : Fin 1) n)) q := by
  unfold k0_pay1
  simp only [shapeCast_self, maximumf_apply, addf_apply, broadcast_apply, matmul_256_256_apply, matmul_128_256_apply,
    truncf_apply, broadcastTo_1b_ab_apply]
  rfl

/-- Entry (p, q) of the second body: stage two of node p at class q.  The class scores of row p are a
    rectified dense layer followed by a dense layer; the row's maximum over its 16 scores is subtracted
    from each, and then the logarithm of the sum over the 16 lanes of the exponentials of those
    differences.  Both lane reductions are read at row p, whatever the lane q, because the column they
    are kept in is broadcast along the row. -/
theorem pay1_apply (v0 v2 : Vec Ideal S2000x256 .f32) (v6 : Vec Ideal S256x256 .f32) (v9 : Vec Ideal S1x256 .f32)
    (v16 : Vec Ideal S256x16 .f32) (v19 : Vec Ideal S1x16 .f32) (p : Fin 2000) (q : Fin 16) :
    k1_pay1 (F := Ideal) v0 v2 v6 v9 v16 v19 (ix2 p q)
      = Cert.Spec.stage2 (fun k : Fin 256 => v0 (ix2 p k) + v2 (ix2 p k)) (fun (k : Fin 256) (n : Fin 256) => v6 (ix2 k n))
          (fun n : Fin 256 => v9 (ix2 (0 : Fin 1) n)) (fun (k : Fin 256) (n : Fin 16) => v16 (ix2 k n)) (fun n : Fin 16 => v19 (ix2 (0 : Fin 1) n)) q := by
  unfold k1_pay1
  -- the two subtractions, the logarithm and the two broadcast columns at (p, q): what is left is the
  -- score at (p, q), the lane maximum of row p and the lane sum of row p
  simp only [shapeCast_self, subf_apply, log_at, exp_at, broadcastTo_a1_ab_apply, shapeCast_a_a1_apply]
  rw [laneMax_apply, laneSum_apply]
  -- under the lane sum: the exponential of the score at (p, k) less the same lane maximum of row p
  simp only [subf_apply, exp_at, broadcastTo_a1_ab_apply, shapeCast_a_a1_apply]
  rw [laneMax_apply]
  -- the scores themselves: two products, two bias rows, one rectifier
  simp only [maximumf_apply, addf_apply, broadcast_apply, matmul_256_16_apply, matmul_256_256_apply,
    truncf_apply, broadcastTo_1b_ab_apply]
  rfl

end Cert.KernelIdeal.Pay

end
-- ==== Proof.KRun.lean ====
/-
  The idealized kernel's run with its result NAMED.

  The program is four segments: the host lines that form the first neighbour sum, the first stage's
  grid of 25 row blocks, the host lines that form the second neighbour sum from the first stage's
  output, and the second stage's grid.  After the last segment every buffer that outlives a region
  holds the contents the fold of the four segments leaves there (`Gen.W4`).  The launch theorem for a
  program of several regions reads any such buffer off the final state; the frame claim reads only the
  arguments, and here the result buffer of the second stage is read as well.
-/
import proofs.«121736_j41652592836734_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates without a fault; the result buffer ends at what the
    last boundary's contents hold there, and the arguments end as launched. -/
theorem run_named : θ_run defs (onTc (τ := τ) (main (F := F))) ⟨m, fun _ => 0, ρ⟩ (fun r => ∀ c : Dev nD,
      r.2.mem ((c.tc : Thread nD τ).loc main_v29) = W4 m ρ c (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v29 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.Named

end
-- ==== Proof.KHost.lean ====
/-
  The host lines around the two regions, read back.

  Before the first region the program slices the edge list into sources and destinations, gathers the source
  rows of the node features and scatter-adds them at the destinations (the first neighbour sum), and reshapes
  the two bias vectors into rows.  Between the regions it does the same with the first stage's output (the
  second neighbour sum) and the other two bias vectors.  The reference program forms its neighbour sums with the
  same operations on the same operands, so each stretch's results are the reference's own stage values of the
  buffers the stretch reads; the gather and the scatter-add are never opened.
-/
import proofs.«121736_j41652592836734_1_alg».proof.Proof.Gen.KernelIdeal.Launch
import proofs.«121736_j41652592836734_1_alg».proof.Proof.RefRead
import Idealize.ShloMosaic.Lib.StableHlo.Run

set_option maxRecDepth 16384

noncomputable section

namespace Cert.KernelIdeal.HostLines

open Cert.KernelIdeal Cert.KernelIdeal.Gen
open Idealize.ShloMosaic Idealize.ShloMosaic.TcCoe Idealize.SL.Sem Idealize.ShloMosaic.StableHlo

variable {F : FTy → Type} [FloatOps F]

/-- The second neighbour sum as the program's host lines form it: from the first stage's output `h`, the sources `s`
    and the destinations `d` (a negative source index wraps around once, as jax's indexing does). -/
def agg2 (h : S50000x256.Idx → Elt F .f32) (s d : S600000.Idx → Elt F (.i32)) : S50000x256.Idx → Elt F .f32 :=
  Host.scatterAdd scatter_S50000x256_S600000x1_S600000x256_1_0_0_1
    (broadcastInDim S50000x256 ![] bcast_S_S50000x256 (constant S_ .f32 0x00000000#32))
    (broadcastInDim S600000x1 ![0] bcast_S600000_S600000x1_0 d)
    (Host.gather gather_S50000x256_S600000x1_S600000x256_1_0_n_n_0_1_1256 h
      (broadcastInDim S600000x1 ![0] bcast_S600000_S600000x1_0
        (select (cmpi .slt s (broadcastInDim S600000 ![] bcast_S_S600000 (constantI S_ 32 0#32)))
          (addi s (broadcastInDim S600000 ![] bcast_S_S600000 (constantI S_ 32 50000#32))) s)))

section Stretch0

variable (W : Valuation τ sig (Elt F))

theorem pre0_arg0 : after hostOps0 W (Proc.devRef .tc main_arg0) = W (Proc.devRef .tc main_arg0) := by after_results
theorem pre0_arg2 : after hostOps0 W (Proc.devRef .tc main_arg2) = W (Proc.devRef .tc main_arg2) := by after_results
theorem pre0_arg4 : after hostOps0 W (Proc.devRef .tc main_arg4) = W (Proc.devRef .tc main_arg4) := by after_results
theorem pre0_arg6 : after hostOps0 W (Proc.devRef .tc main_arg6) = W (Proc.devRef .tc main_arg6) := by after_results
theorem pre0_arg7 : after hostOps0 W (Proc.devRef .tc main_arg7) = W (Proc.devRef .tc main_arg7) := by after_results
theorem pre0_arg8 : after hostOps0 W (Proc.devRef .tc main_arg8) = W (Proc.devRef .tc main_arg8) := by after_results
theorem pre0_arg9 : after hostOps0 W (Proc.devRef .tc main_arg9) = W (Proc.devRef .tc main_arg9) := by after_results

/-- The sources, as the reference forms them. -/
theorem pre0_src : after hostOps0 W (Proc.devRef .tc main_v1)
    = Cert.ReferenceIdeal.Read.val_main_v1 (F := F) (W (Proc.devRef .tc main_arg1)) := by after_results; rfl
/-- The destinations. -/
theorem pre0_dst : after hostOps0 W (Proc.devRef .tc main_v3)
    = Cert.ReferenceIdeal.Read.val_main_v3 (F := F) (W (Proc.devRef .tc main_arg1)) := by after_results; rfl
/-- The first neighbour sum is the reference's. -/
theorem pre0_agg : after hostOps0 W (Proc.devRef .tc main_v13)
    = Cert.ReferenceIdeal.Read.val_main_v13 (F := F) (W (Proc.devRef .tc main_arg0)) (W (Proc.devRef .tc main_arg1)) := by
  after_results; rfl
/-- The first stage's bias vectors as rows. -/
theorem pre0_b1 : after hostOps0 W (Proc.devRef .tc main_v14)
    = shapeCast S1x256 (W (Proc.devRef .tc main_arg3) : S256.Idx → Elt F .f32) shapeCasts_S256_S1x256 := by after_results; rfl
theorem pre0_b2 : after hostOps0 W (Proc.devRef .tc main_v15)
    = shapeCast S1x256 (W (Proc.devRef .tc main_arg5) : S256.Idx → Elt F .f32) shapeCasts_S256_S1x256 := by after_results; rfl

end Stretch0

section Stretch1

variable (W : Valuation τ sig (Elt F))

theorem pre1_h : after hostOps1 W (Proc.devRef .tc main_v16) = W (Proc.devRef .tc main_v16) := by after_results
theorem pre1_arg6 : after hostOps1 W (Proc.devRef .tc main_arg6) = W (Proc.devRef .tc main_arg6) := by after_results
theorem pre1_arg8 : after hostOps1 W (Proc.devRef .tc main_arg8) = W (Proc.devRef .tc main_arg8) := by after_results
/-- The second neighbour sum, from the first stage's output and the edge lists as the stretch finds them. -/
theorem pre1_agg : after hostOps1 W (Proc.devRef .tc main_v26)
    = agg2 (F := F) (W (Proc.devRef .tc main_v16)) (W (Proc.devRef .tc main_v1)) (W (Proc.devRef .tc main_v3)) := by
  after_results; rfl
/-- The second stage's bias vectors as rows. -/
theorem pre1_b1 : after hostOps1 W (Proc.devRef .tc main_v27)
    = shapeCast S1x256 (W (Proc.devRef .tc main_arg7) : S256.Idx → Elt F .f32) shapeCasts_S256_S1x256 := by after_results; rfl
theorem pre1_b2 : after hostOps1 W (Proc.devRef .tc main_v28)
    = shapeCast S1x16 (W (Proc.devRef .tc main_arg9) : S16.Idx → Elt F .f32) shapeCasts_S16_S1x16 := by after_results; rfl

end Stretch1

/-- With the first stage's output and the edge lists the reference's, the second neighbour sum is the reference's. -/
theorem agg2_ref (x0 : (⟨S50000x128, .f32⟩ : BufTy).Contents (Elt F)) (x1 : (⟨S2x600000, .i32⟩ : BufTy).Contents (Elt F))
    (x2 : (⟨S128x256, .f32⟩ : BufTy).Contents (Elt F)) (x3 : (⟨S256, .f32⟩ : BufTy).Contents (Elt F))
    (x4 : (⟨S256x256, .f32⟩ : BufTy).Contents (Elt F)) (x5 : (⟨S256, .f32⟩ : BufTy).Contents (Elt F)) :
    agg2 (F := F) (Cert.ReferenceIdeal.Read.val_main_v24 (F := F) x0 x1 x2 x3 x4 x5)
        (Cert.ReferenceIdeal.Read.val_main_v1 (F := F) x1) (Cert.ReferenceIdeal.Read.val_main_v3 (F := F) x1)
      = Cert.ReferenceIdeal.Read.val_main_v34 (F := F) x0 x1 x2 x3 x4 x5 := rfl

end Cert.KernelIdeal.HostLines

end
-- ==== Proof.KRegion0.lean ====
/-
  The first stage's region: what its output array holds once all 25 row blocks are written back.

  Grid point `t` stages rows `2000·t … 2000·t + 1999` of the node features and of the neighbour sums, the two
  weight matrices and the two bias rows whole, and writes back rows `2000·t …` of the output.  Entry `(p, q)` of the
  block it writes is the stage-one row function of row `p` of the two staged blocks, which is row `2000·t + p` of
  the arrays.  The 25 blocks tile the 50000 rows, so the array ends as that row function of every row.
-/
import proofs.«121736_j41652592836734_1_alg».proof.Proof.Gen.KernelIdeal.Frame
import proofs.«121736_j41652592836734_1_alg».proof.Proof.Spec
import Idealize.ShloMosaic.Lib.ValueIdx
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)

/-- Stage one over whole arrays: at node `i 0` and feature `i 1`, the row function of that node's row. -/
def G (a0 a1 : S50000x128.Idx → EReal) (a2 : S128x256.Idx → EReal) (a3 : S1x256.Idx → EReal)
    (a4 : S256x256.Idx → EReal) (a5 : S1x256.Idx → EReal) : S50000x256.Idx → EReal := fun i =>
  Cert.Spec.stage1 (fun k : Fin 128 => a0 (ix2 (i 0) k) + a1 (ix2 (i 0) k)) (fun (k : Fin 128) (n : Fin 256) => a2 (ix2 k n))
    (fun n : Fin 256 => a3 (ix2 (0 : Fin 1) n)) (fun (k : Fin 256) (n : Fin 256) => a4 (ix2 k n))
    (fun n : Fin 256 => a5 (ix2 (0 : Fin 1) n)) (i 1)

theorem hz : (![0, 0] : Fin 2 → Nat) = fun _ => 0 := funext fun a => by fin_cases a <;> rfl

/-- The printed index maps over the grid: the two row-blocked inputs and the output move with the point, the four
    whole operands stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

variable {F : FTy → Type} [FloatOps F]

/-- A row-blocked input's block at point `t`, read at `(p, k)`, is the array at row `2000·t + p`. -/
theorem read_win0 (A : S50000x128.Idx → Elt F .f32) (t : Fin cfg0.N) (p : Fin 2000) (k : Fin 128) (r : Fin 50000)
    (hr : r.val = t.val * 2000 + p.val) :
    (((cfg0.win 0).blk t).view.read (Elt F) A : S2000x128.Idx → Elt F .f32) (ix2 p k) = A (ix2 r k) := by
  rw [View.read_apply]
  show A _ = A _
  refine congrArg A (funext fun a => Fin.ext ?_)
  match a with
  | ⟨0, _⟩ => show win0_0.index t (0 : Fin 2) * 2000 + 1 * p.val = r.val; rw [(idx_facts t).1, hr]; omega
  | ⟨1, _⟩ => show win0_0.index t (1 : Fin 2) * 128 + 1 * k.val = k.val; rw [(idx_facts t).2.1]; omega

/-- The same for the second row-blocked input (the neighbour sums). -/
theorem read_win1 (A : S50000x128.Idx → Elt F .f32) (t : Fin cfg0.N) (p : Fin 2000) (k : Fin 128) (r : Fin 50000)
    (hr : r.val = t.val * 2000 + p.val) :
    (((cfg0.win 1).blk t).view.read (Elt F) A : S2000x128.Idx → Elt F .f32) (ix2 p k) = A (ix2 r k) := by
  rw [View.read_apply]
  show A _ = A _
  refine congrArg A (funext fun a => Fin.ext ?_)
  match a with
  | ⟨0, _⟩ => show win0_1.index t (0 : Fin 2) * 2000 + 1 * p.val = r.val; rw [(idx_facts t).2.2.1, hr]; omega
  | ⟨1, _⟩ => show win0_1.index t (1 : Fin 2) * 128 + 1 * k.val = k.val; rw [(idx_facts t).2.2.2.1]; omega

/-- A whole operand's block is the operand: the first weight matrix. -/
theorem read_win2 (A : S128x256.Idx → Elt F .f32) (t : Fin cfg0.N) (k : Fin 128) (n : Fin 256) :
    (((cfg0.win 2).blk t).view.read (Elt F) A : S128x256.Idx → Elt F .f32) (ix2 k n) = A (ix2 k n) := by
  rw [View.read_apply]
  show A _ = A _
  refine congrArg A (funext fun a => Fin.ext ?_)
  match a with
  | ⟨0, _⟩ => show win0_2.index t (0 : Fin 2) * 128 + 1 * k.val = k.val; rw [(idx_facts t).2.2.2.2.1]; omega
  | ⟨1, _⟩ => show win0_2.index t (1 : Fin 2) * 256 + 1 * n.val = n.val; rw [(idx_facts t).2.2.2.2.2.1]; omega

/-- The first bias row. -/
theorem read_win3 (A : S1x256.Idx → Elt F .f32) (t : Fin cfg0.N) (n : Fin 256) :
    (((cfg0.win 3).blk t).view.read (Elt F) A : S1x256.Idx → Elt F .f32) (ix2 (0 : Fin 1) n) = A (ix2 (0 : Fin 1) n) := by
  rw [View.read_apply]
  show A _ = A _
  refine congrArg A (funext fun a => Fin.ext ?_)
  match a with
  | ⟨0, _⟩ => show win0_3.index t (0 : Fin 2) * 1 + 1 * 0 = 0; rw [(idx_facts t).2.2.2.2.2.2.1]
  | ⟨1, _⟩ => show win0_3.index t (1 : Fin 2) * 256 + 1 * n.val = n.val; rw [(idx_facts t).2.2.2.2.2.2.2.1]; omega

/-- The second weight matrix. -/
theorem read_win4 (A : S256x256.Idx → Elt F .f32) (t : Fin cfg0.N) (k : Fin 256) (n : Fin 256) :
    (((cfg0.win 4).blk t).view.read (Elt F) A : S256x256.Idx → Elt F .f32) (ix2 k n) = A (ix2 k n) := by
  rw [View.read_apply]
  show A _ = A _
  refine congrArg A (funext fun a => Fin.ext ?_)
  match a with
  | ⟨0, _⟩ => show win0_4.index t (0 : Fin 2) * 256 + 1 * k.val = k.val; rw [(idx_facts t).2.2.2.2.2.2.2.2.1]; omega
  | ⟨1, _⟩ => show win0_4.index t (1 : Fin 2) * 256 + 1 * n.val = n.val; rw [(idx_facts t).2.2.2.2.2.2.2.2.2.1]; omega

/-- The second bias row. -/
theorem read_win5 (A : S1x256.Idx → Elt F .f32) (t : Fin cfg0.N) (n : Fin 256) :
    (((cfg0.win 5).blk t).view.read (Elt F) A : S1x256.Idx → Elt F .f32) (ix2 (0 : Fin 1) n) = A (ix2 (0 : Fin 1) n) := by
  rw [View.read_apply]
  show A _ = A _
  refine congrArg A (funext fun a => Fin.ext ?_)
  match a with
  | ⟨0, _⟩ => show win0_5.index t (0 : Fin 2) * 1 + 1 * 0 = 0; rw [(idx_facts t).2.2.2.2.2.2.2.2.2.2.1]
  | ⟨1, _⟩ => show win0_5.index t (1 : Fin 2) * 256 + 1 * n.val = n.val; rw [(idx_facts t).2.2.2.2.2.2.2.2.2.2.2.1]; omega

/-- The output's block at point `t`, read at `(p, q)`, is the array at row `2000·t + p`. -/
theorem read_win6 (A : S50000x256.Idx → Elt F .f32) (t : Fin cfg0.N) (p : Fin 2000) (q : Fin 256) (r : Fin 50000)
    (hr : r.val = t.val * 2000 + p.val) :
    (((cfg0.win 6).blk t).view.read (Elt F) A : S2000x256.Idx → Elt F .f32) (ix2 p q) = A (ix2 r q) := by
  rw [View.read_apply]
  show A _ = A _
  refine congrArg A (funext fun a => Fin.ext ?_)
  match a with
  | ⟨0, _⟩ => show win0_6.index t (0 : Fin 2) * 2000 + 1 * p.val = r.val; rw [(idx_facts t).2.2.2.2.2.2.2.2.2.2.2.2.1, hr]; omega
  | ⟨1, _⟩ => show win0_6.index t (1 : Fin 2) * 256 + 1 * q.val = q.val; rw [(idx_facts t).2.2.2.2.2.2.2.2.2.2.2.2.2]; omega

/-- What the body's one store holds at an entry, as the stage-one row function of the loaded blocks' rows. -/
abbrev PayloadAt : Prop :=
  ∀ (v0 v1 : Vec Ideal S2000x128 .f32) (v5 : Vec Ideal S128x256 .f32) (v8 : Vec Ideal S1x256 .f32)
    (v15 : Vec Ideal S256x256 .f32) (v18 : Vec Ideal S1x256 .f32) (p : Fin 2000) (q : Fin 256),
    k0_pay1 (F := Ideal) v0 v1 v5 v8 v15 v18 (ix2 p q)
      = Cert.Spec.stage1 (fun k : Fin 128 => v0 (ix2 p k) + v1 (ix2 p k)) (fun (k : Fin 128) (n : Fin 256) => v5 (ix2 k n))
          (fun n : Fin 256 => v8 (ix2 (0 : Fin 1) n)) (fun (k : Fin 256) (n : Fin 256) => v15 (ix2 k n)) (fun n : Fin 256 => v18 (ix2 (0 : Fin 1) n)) q

section Run

variable (V : (c : Dev nD) → (b : Ref sig .tc) → Buf (Elt Ideal) ((c : Thread nD τ).loc b))

/-- WHAT POINT `t` WRITES BACK is block `t` of the stage-one function of the arrays as the region finds them. -/
theorem flushed_eq (hpay : PayloadAt) (c : Dev nD) (t : Fin cfg0.N) :
    (dat0 (F := Ideal) V c).flushed 6 t
      = ((cfg0.win 6).blk t).view.read (Elt Ideal)
          (G (V c main_arg0) (V c main_v13) (V c main_arg2) (V c main_v14) (V c main_arg4) (V c main_v15)) := by
  show (cfg0.win 6).cut (grid0.coords t) ((dat0 (F := Ideal) V c).after 6 t) = _
  rw [after0_6]
  unfold out0_6
  rw [View.canon_unit_zero hz]
  simp only [View.ld_unit_zero (S := S2000x128) hz, View.ld_unit_zero (S := S128x256) hz, View.ld_unit_zero (S := S1x256) hz,
    View.ld_unit_zero (S := S256x256) hz]
  funext j
  obtain ⟨p, q, rfl⟩ : ∃ (p : Fin 2000) (q : Fin 256), j = ix2 p q := ⟨j 0, j 1, eq_ix2 j⟩
  have hN : cfg0.N = 25 := N_0
  have ht : t.val < 25 := hN ▸ t.isLt
  have hp : p.val < 2000 := p.isLt
  let r : Fin 50000 := ⟨t.val * 2000 + p.val, by omega⟩
  have hr : r.val = t.val * 2000 + p.val := rfl
  refine Eq.trans ?_ (read_win6 _ t p q r hr).symm
  refine (hpay _ _ _ _ _ _ p q).trans ?_
  have e0 : ∀ k : Fin 128, (iblk0 V c 0 t : S2000x128.Idx → EReal) (ix2 p k) = V c main_arg0 (ix2 r k) :=
    fun k => read_win0 _ t p k r hr
  have e1 : ∀ k : Fin 128, (iblk0 V c 1 t : S2000x128.Idx → EReal) (ix2 p k) = V c main_v13 (ix2 r k) :=
    fun k => read_win1 _ t p k r hr
  have e2 : ∀ (k : Fin 128) (n : Fin 256), (iblk0 V c 2 t : S128x256.Idx → EReal) (ix2 k n) = V c main_arg2 (ix2 k n) :=
    fun k n => read_win2 _ t k n
  have e3 : ∀ n : Fin 256, (iblk0 V c 3 t : S1x256.Idx → EReal) (ix2 (0 : Fin 1) n) = V c main_v14 (ix2 (0 : Fin 1) n) :=
    fun n => read_win3 _ t n
  have e4 : ∀ (k : Fin 256) (n : Fin 256), (iblk0 V c 4 t : S256x256.Idx → EReal) (ix2 k n) = V c main_arg4 (ix2 k n) :=
    fun k n => read_win4 _ t k n
  have e5 : ∀ n : Fin 256, (iblk0 V c 5 t : S1x256.Idx → EReal) (ix2 (0 : Fin 1) n) = V c main_v15 (ix2 (0 : Fin 1) n) :=
    fun n => read_win5 _ t n
  show Cert.Spec.stage1 _ _ _ _ _ q = Cert.Spec.stage1 _ _ _ _ _ q
  refine congrArg (fun f : Fin 256 → EReal => f q) ?_
  refine congr (congr (congr (congr (congrArg Cert.Spec.stage1 ?_) ?_) ?_) ?_) ?_
  · funext k
    exact congr (congrArg (fun a b : EReal => a + b) (e0 k)) (e1 k)
  · funext k n; exact e2 k n
  · funext n; exact e3 n
  · funext k n; exact e4 k n
  · funext n; exact e5 n

/-- An index of the output array is in point `t`'s block iff each coordinate is in the block's range on its axis. -/
theorem mem_blk (t : Fin cfg0.N) (i : S50000x256.Idx) :
    i ∈ ((cfg0.win 6).blk t).view.set ↔ ∀ a : Fin 2, win0_6.index t a * S2000x256.size a ≤ (i a).val ∧ (i a).val < win0_6.index t a * S2000x256.size a + S2000x256.size a := by
  show i ∈ ((View.whole main_v16).slice (win0_6.rect t)).set ↔ _
  rw [View.set_slice_whole, Rect.mem_set_unit]
  exact Iff.rfl

/-- Every row lies in the block of the point `row / 2000`: the 25 blocks tile the 50000 rows. -/
theorem cover (i : S50000x256.Idx) : ∃ t : Fin cfg0.N, (cfg0.win 6).flush t = true ∧ i ∈ ((cfg0.win 6).blk t).view.set := by
  have hi0 : (i 0).val < 50000 := (i 0).isLt
  have hi1 : (i 1).val < 256 := (i 1).isLt
  have hN : cfg0.N = 25 := N_0
  have hlt : (i 0).val / 2000 < cfg0.N := by rw [hN]; omega
  refine ⟨⟨(i 0).val / 2000, hlt⟩, flush0_6 _, ?_⟩
  rw [mem_blk]
  have h6 := (idx_facts ⟨(i 0).val / 2000, hlt⟩).2.2.2.2.2.2.2.2.2.2.2.2
  intro a
  match a with
  | ⟨0, _⟩ =>
    show win0_6.index ⟨(i 0).val / 2000, hlt⟩ (0 : Fin 2) * 2000 ≤ (i 0).val ∧ (i 0).val < win0_6.index ⟨(i 0).val / 2000, hlt⟩ (0 : Fin 2) * 2000 + 2000
    rw [h6.1]; show (i 0).val / 2000 * 2000 ≤ (i 0).val ∧ (i 0).val < (i 0).val / 2000 * 2000 + 2000; omega
  | ⟨1, _⟩ =>
    show win0_6.index ⟨(i 0).val / 2000, hlt⟩ (1 : Fin 2) * 256 ≤ (i 1).val ∧ (i 1).val < win0_6.index ⟨(i 0).val / 2000, hlt⟩ (1 : Fin 2) * 256 + 256
    rw [h6.2]; omega

/-- THE ARRAY after the region: the stage-one function of the arrays as the region finds them. -/
theorem final (hpay : PayloadAt) (c : Dev nD) :
    (dat0 (F := Ideal) V c).arrAt 6 cfg0.N
      = G (V c main_arg0) (V c main_v13) (V c main_arg2) (V c main_v14) (V c main_arg4) (V c main_v15) :=
  (dat0 (F := Ideal) V c).arrAt_eq_of_cover 6 _ (fun t _ => flushed_eq V hpay c t) cover

end Run

end Cert.KernelIdeal.Region0

end
-- ==== Proof.KRegion1.lean ====
/-
  The second stage's region: what the result array holds once all 25 row blocks are written back.

  Grid point `t` stages rows `2000·t … 2000·t + 1999` of the first stage's output and of the second neighbour
  sums, the two weight matrices and the two bias rows whole, and writes back rows `2000·t …` of the result.  Entry
  `(p, q)` of the block it writes is the stage-two row function (class scores, then log-softmax) of row `p` of the
  two staged blocks, which is row `2000·t + p` of the arrays.  The 25 blocks tile the 50000 rows.
-/
import proofs.«121736_j41652592836734_1_alg».proof.Proof.Gen.KernelIdeal.Frame
import proofs.«121736_j41652592836734_1_alg».proof.Proof.Spec
import Idealize.ShloMosaic.Lib.ValueIdx
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat)

/-- Stage two over whole arrays: at node `i 0` and feature `i 1`, the row function of that node's row. -/
def G (a0 a1 : S50000x256.Idx → EReal) (a2 : S256x256.Idx → EReal) (a3 : S1x256.Idx → EReal)
    (a4 : S256x16.Idx → EReal) (a5 : S1x16.Idx → EReal) : S50000x16.Idx → EReal := fun i =>
  Cert.Spec.stage2 (fun k : Fin 256 => a0 (ix2 (i 0) k) + a1 (ix2 (i 0) k)) (fun (k : Fin 256) (n : Fin 256) => a2 (ix2 k n))
    (fun n : Fin 256 => a3 (ix2 (0 : Fin 1) n)) (fun (k : Fin 256) (n : Fin 16) => a4 (ix2 k n))
    (fun n : Fin 16 => a5 (ix2 (0 : Fin 1) n)) (i 1)

theorem hz : (![0, 0] : Fin 2 → Nat) = fun _ => 0 := funext fun a => by fin_cases a <;> rfl

/-- The printed index maps over the grid: the two row-blocked inputs and the output move with the point, the four
    whole operands stay at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

variable {F : FTy → Type} [FloatOps F]

/-- A row-blocked input's block at point `t`, read at `(p, k)`, is the array at row `2000·t + p`. -/
theorem read_win0 (A : S50000x256.Idx → Elt F .f32) (t : Fin cfg1.N) (p : Fin 2000) (k : Fin 256) (r : Fin 50000)
    (hr : r.val = t.val * 2000 + p.val) :
    (((cfg1.win 0).blk t).view.read (Elt F) A : S2000x256.Idx → Elt F .f32) (ix2 p k) = A (ix2 r k) := by
  rw [View.read_apply]
  show A _ = A _
  refine congrArg A (funext fun a => Fin.ext ?_)
  match a with
  | ⟨0, _⟩ => show win1_0.index t (0 : Fin 2) * 2000 + 1 * p.val = r.val; rw [(idx_facts t).1, hr]; omega
  | ⟨1, _⟩ => show win1_0.index t (1 : Fin 2) * 256 + 1 * k.val = k.val; rw [(idx_facts t).2.1]; omega

/-- The same for the second row-blocked input (the second neighbour sums). -/
theorem read_win1 (A : S50000x256.Idx → Elt F .f32) (t : Fin cfg1.N) (p : Fin 2000) (k : Fin 256) (r : Fin 50000)
    (hr : r.val = t.val * 2000 + p.val) :
    (((cfg1.win 1).blk t).view.read (Elt F) A : S2000x256.Idx → Elt F .f32) (ix2 p k) = A (ix2 r k) := by
  rw [View.read_apply]
  show A _ = A _
  refine congrArg A (funext fun a => Fin.ext ?_)
  match a with
  | ⟨0, _⟩ => show win1_1.index t (0 : Fin 2) * 2000 + 1 * p.val = r.val; rw [(idx_facts t).2.2.1, hr]; omega
  | ⟨1, _⟩ => show win1_1.index t (1 : Fin 2) * 256 + 1 * k.val = k.val; rw [(idx_facts t).2.2.2.1]; omega

/-- A whole operand's block is the operand: the first weight matrix. -/
theorem read_win2 (A : S256x256.Idx → Elt F .f32) (t : Fin cfg1.N) (k : Fin 256) (n : Fin 256) :
    (((cfg1.win 2).blk t).view.read (Elt F) A : S256x256.Idx → Elt F .f32) (ix2 k n) = A (ix2 k n) := by
  rw [View.read_apply]
  show A _ = A _
  refine congrArg A (funext fun a => Fin.ext ?_)
  match a with
  | ⟨0, _⟩ => show win1_2.index t (0 : Fin 2) * 256 + 1 * k.val = k.val; rw [(idx_facts t).2.2.2.2.1]; omega
  | ⟨1, _⟩ => show win1_2.index t (1 : Fin 2) * 256 + 1 * n.val = n.val; rw [(idx_facts t).2.2.2.2.2.1]; omega

/-- The first bias row. -/
theorem read_win3 (A : S1x256.Idx → Elt F .f32) (t : Fin cfg1.N) (n : Fin 256) :
    (((cfg1.win 3).blk t).view.read (Elt F) A : S1x256.Idx → Elt F .f32) (ix2 (0 : Fin 1) n) = A (ix2 (0 : Fin 1) n) := by
  rw [View.read_apply]
  show A _ = A _
  refine congrArg A (funext fun a => Fin.ext ?_)
  match a with
  | ⟨0, _⟩ => show win1_3.index t (0 : Fin 2) * 1 + 1 * 0 = 0; rw [(idx_facts t).2.2.2.2.2.2.1]
  | ⟨1, _⟩ => show win1_3.index t (1 : Fin 2) * 256 + 1 * n.val = n.val; rw [(idx_facts t).2.2.2.2.2.2.2.1]; omega

/-- The second weight matrix. -/
theorem read_win4 (A : S256x16.Idx → Elt F .f32) (t : Fin cfg1.N) (k : Fin 256) (n : Fin 16) :
    (((cfg1.win 4).blk t).view.read (Elt F) A : S256x16.Idx → Elt F .f32) (ix2 k n) = A (ix2 k n) := by
  rw [View.read_apply]
  show A _ = A _
  refine congrArg A (funext fun a => Fin.ext ?_)
  match a with
  | ⟨0, _⟩ => show win1_4.index t (0 : Fin 2) * 256 + 1 * k.val = k.val; rw [(idx_facts t).2.2.2.2.2.2.2.2.1]; omega
  | ⟨1, _⟩ => show win1_4.index t (1 : Fin 2) * 16 + 1 * n.val = n.val; rw [(idx_facts t).2.2.2.2.2.2.2.2.2.1]; omega

/-- The second bias row. -/
theorem read_win5 (A : S1x16.Idx → Elt F .f32) (t : Fin cfg1.N) (n : Fin 16) :
    (((cfg1.win 5).blk t).view.read (Elt F) A : S1x16.Idx → Elt F .f32) (ix2 (0 : Fin 1) n) = A (ix2 (0 : Fin 1) n) := by
  rw [View.read_apply]
  show A _ = A _
  refine congrArg A (funext fun a => Fin.ext ?_)
  match a with
  | ⟨0, _⟩ => show win1_5.index t (0 : Fin 2) * 1 + 1 * 0 = 0; rw [(idx_facts t).2.2.2.2.2.2.2.2.2.2.1]
  | ⟨1, _⟩ => show win1_5.index t (1 : Fin 2) * 16 + 1 * n.val = n.val; rw [(idx_facts t).2.2.2.2.2.2.2.2.2.2.2.1]; omega

/-- The output's block at point `t`, read at `(p, q)`, is the array at row `2000·t + p`. -/
theorem read_win6 (A : S50000x16.Idx → Elt F .f32) (t : Fin cfg1.N) (p : Fin 2000) (q : Fin 16) (r : Fin 50000)
    (hr : r.val = t.val * 2000 + p.val) :
    (((cfg1.win 6).blk t).view.read (Elt F) A : S2000x16.Idx → Elt F .f32) (ix2 p q) = A (ix2 r q) := by
  rw [View.read_apply]
  show A _ = A _
  refine congrArg A (funext fun a => Fin.ext ?_)
  match a with
  | ⟨0, _⟩ => show win1_6.index t (0 : Fin 2) * 2000 + 1 * p.val = r.val; rw [(idx_facts t).2.2.2.2.2.2.2.2.2.2.2.2.1, hr]; omega
  | ⟨1, _⟩ => show win1_6.index t (1 : Fin 2) * 16 + 1 * q.val = q.val; rw [(idx_facts t).2.2.2.2.2.2.2.2.2.2.2.2.2]; omega

/-- What the body's one store holds at an entry, as the stage-two row function of the loaded blocks' rows. -/
abbrev PayloadAt : Prop :=
  ∀ (v0 v2 : Vec Ideal S2000x256 .f32) (v6 : Vec Ideal S256x256 .f32) (v9 : Vec Ideal S1x256 .f32)
    (v16 : Vec Ideal S256x16 .f32) (v19 : Vec Ideal S1x16 .f32) (p : Fin 2000) (q : Fin 16),
    k1_pay1 (F := Ideal) v0 v2 v6 v9 v16 v19 (ix2 p q)
      = Cert.Spec.stage2 (fun k : Fin 256 => v0 (ix2 p k) + v2 (ix2 p k)) (fun (k : Fin 256) (n : Fin 256) => v6 (ix2 k n))
          (fun n : Fin 256 => v9 (ix2 (0 : Fin 1) n)) (fun (k : Fin 256) (n : Fin 16) => v16 (ix2 k n)) (fun n : Fin 16 => v19 (ix2 (0 : Fin 1) n)) q

section Run

variable (V : (c : Dev nD) → (b : Ref sig .tc) → Buf (Elt Ideal) ((c : Thread nD τ).loc b))

/-- WHAT POINT `t` WRITES BACK is block `t` of the stage-two function of the arrays as the region finds them. -/
theorem flushed_eq (hpay : PayloadAt) (c : Dev nD) (t : Fin cfg1.N) :
    (dat1 (F := Ideal) V c).flushed 6 t
      = ((cfg1.win 6).blk t).view.read (Elt Ideal)
          (G (V c main_v16) (V c main_v26) (V c main_arg6) (V c main_v27) (V c main_arg8) (V c main_v28)) := by
  show (cfg1.win 6).cut (grid1.coords t) ((dat1 (F := Ideal) V c).after 6 t) = _
  rw [after1_6]
  unfold out1_6
  rw [View.canon_unit_zero hz]
  simp only [View.ld_unit_zero (S := S2000x256) hz, View.ld_unit_zero (S := S256x256) hz, View.ld_unit_zero (S := S1x256) hz,
    View.ld_unit_zero (S := S256x16) hz, View.ld_unit_zero (S := S1x16) hz]
  funext j
  obtain ⟨p, q, rfl⟩ : ∃ (p : Fin 2000) (q : Fin 16), j = ix2 p q := ⟨j 0, j 1, eq_ix2 j⟩
  have hN : cfg1.N = 25 := N_1
  have ht : t.val < 25 := hN ▸ t.isLt
  have hp : p.val < 2000 := p.isLt
  let r : Fin 50000 := ⟨t.val * 2000 + p.val, by omega⟩
  have hr : r.val = t.val * 2000 + p.val := rfl
  refine Eq.trans ?_ (read_win6 _ t p q r hr).symm
  refine (hpay _ _ _ _ _ _ p q).trans ?_
  have e0 : ∀ k : Fin 256, (iblk1 V c 0 t : S2000x256.Idx → EReal) (ix2 p k) = V c main_v16 (ix2 r k) :=
    fun k => read_win0 _ t p k r hr
  have e1 : ∀ k : Fin 256, (iblk1 V c 1 t : S2000x256.Idx → EReal) (ix2 p k) = V c main_v26 (ix2 r k) :=
    fun k => read_win1 _ t p k r hr
  have e2 : ∀ (k : Fin 256) (n : Fin 256), (iblk1 V c 2 t : S256x256.Idx → EReal) (ix2 k n) = V c main_arg6 (ix2 k n) :=
    fun k n => read_win2 _ t k n
  have e3 : ∀ n : Fin 256, (iblk1 V c 3 t : S1x256.Idx → EReal) (ix2 (0 : Fin 1) n) = V c main_v27 (ix2 (0 : Fin 1) n) :=
    fun n => read_win3 _ t n
  have e4 : ∀ (k : Fin 256) (n : Fin 16), (iblk1 V c 4 t : S256x16.Idx → EReal) (ix2 k n) = V c main_arg8 (ix2 k n) :=
    fun k n => read_win4 _ t k n
  have e5 : ∀ n : Fin 16, (iblk1 V c 5 t : S1x16.Idx → EReal) (ix2 (0 : Fin 1) n) = V c main_v28 (ix2 (0 : Fin 1) n) :=
    fun n => read_win5 _ t n
  show Cert.Spec.stage2 _ _ _ _ _ q = Cert.Spec.stage2 _ _ _ _ _ q
  refine congrArg (fun f : Fin 16 → EReal => f q) ?_
  refine congr (congr (congr (congr (congrArg Cert.Spec.stage2 ?_) ?_) ?_) ?_) ?_
  · funext k
    exact congr (congrArg (fun a b : EReal => a + b) (e0 k)) (e1 k)
  · funext k n; exact e2 k n
  · funext n; exact e3 n
  · funext k n; exact e4 k n
  · funext n; exact e5 n

/-- An index of the output array is in point `t`'s block iff each coordinate is in the block's range on its axis. -/
theorem mem_blk (t : Fin cfg1.N) (i : S50000x16.Idx) :
    i ∈ ((cfg1.win 6).blk t).view.set ↔ ∀ a : Fin 2, win1_6.index t a * S2000x16.size a ≤ (i a).val ∧ (i a).val < win1_6.index t a * S2000x16.size a + S2000x16.size a := by
  show i ∈ ((View.whole main_v29).slice (win1_6.rect t)).set ↔ _
  rw [View.set_slice_whole, Rect.mem_set_unit]
  exact Iff.rfl

/-- Every row lies in the block of the point `row / 2000`: the 25 blocks tile the 50000 rows. -/
theorem cover (i : S50000x16.Idx) : ∃ t : Fin cfg1.N, (cfg1.win 6).flush t = true ∧ i ∈ ((cfg1.win 6).blk t).view.set := by
  have hi0 : (i 0).val < 50000 := (i 0).isLt
  have hi1 : (i 1).val < 16 := (i 1).isLt
  have hN : cfg1.N = 25 := N_1
  have hlt : (i 0).val / 2000 < cfg1.N := by rw [hN]; omega
  refine ⟨⟨(i 0).val / 2000, hlt⟩, flush1_6 _, ?_⟩
  rw [mem_blk]
  have h6 := (idx_facts ⟨(i 0).val / 2000, hlt⟩).2.2.2.2.2.2.2.2.2.2.2.2
  intro a
  match a with
  | ⟨0, _⟩ =>
    show win1_6.index ⟨(i 0).val / 2000, hlt⟩ (0 : Fin 2) * 2000 ≤ (i 0).val ∧ (i 0).val < win1_6.index ⟨(i 0).val / 2000, hlt⟩ (0 : Fin 2) * 2000 + 2000
    rw [h6.1]; show (i 0).val / 2000 * 2000 ≤ (i 0).val ∧ (i 0).val < (i 0).val / 2000 * 2000 + 2000; omega
  | ⟨1, _⟩ =>
    show win1_6.index ⟨(i 0).val / 2000, hlt⟩ (1 : Fin 2) * 16 ≤ (i 1).val ∧ (i 1).val < win1_6.index ⟨(i 0).val / 2000, hlt⟩ (1 : Fin 2) * 16 + 16
    rw [h6.2]; omega

/-- THE ARRAY after the region: the stage-two function of the arrays as the region finds them. -/
theorem final (hpay : PayloadAt) (c : Dev nD) :
    (dat1 (F := Ideal) V c).arrAt 6 cfg1.N
      = G (V c main_v16) (V c main_v26) (V c main_arg6) (V c main_v27) (V c main_arg8) (V c main_v28) :=
  (dat1 (F := Ideal) V c).arrAt_eq_of_cover 6 _ (fun t _ => flushed_eq V hpay c t) cover

end Run

end Cert.KernelIdeal.Region1

end
-- ==== Proof.RefStage.lean ====
/-
  The reference's two stages, read at one output entry.

  The reference works on all 50000 rows at once.  Read at row `r` and output feature `q`, each of its
  matrix products is the finite sum over the contracted index of row `r` of the left factor against
  column `q` of the right; a bias, broadcast first to one row and then down all the rows, is its entry `q`; the
  rectifier is the maximum against the word of `0.0`.  So each stage, at `(r, q)`, is the row function of the
  specification applied to row `r` of what enters the stage: the node's own features plus the sum of its
  in-neighbours' features, a sum that is kept here as the array the reference computes and never opened.

  The log-softmax that ends the second stage takes a row's maximum as a fold of `max` from `-∞` over the 16
  scores, then takes the maximum with `-∞` once more (which changes nothing: the fold is already at least its
  starting value), subtracts it, and subtracts the logarithm of the sum of the exponentials; that sum starts
  from the word of `0.0`, which is the zero of the extended reals and disappears.
-/
import proofs.«121736_j41652592836734_1_alg».proof.Proof.RefRead
import proofs.«121736_j41652592836734_1_alg».proof.Proof.Spec
import Idealize.ShloMosaic.Lib.ValueIdx
import Idealize.ShloMosaic.PureOps.Ideal.Laws

noncomputable section

namespace Cert.ReferenceIdeal.Stage

open Cert.ReferenceIdeal Cert.ReferenceIdeal.Read Idealize.ShloMosaic Idealize.ShloMosaic.ValueIdx

/-! ## Stage one: 128 → 256 → 256, rectified twice -/

/-- The first bias, broadcast to all rows, reads its entry `q` in every row. -/
theorem bias1_apply (x3 : (⟨S256, .f32⟩ : BufTy).Contents (Elt Ideal)) (r : Fin 50000) (q : Fin 256) :
    val_main_v17 (F := Ideal) x3 (ix2 r q) = x3 (ix1 q) := by
  rw [val_main_v17_apply, val_main_v16_apply]
  exact congrArg x3 (funext fun a => Fin.ext (by match a with | ⟨0, _⟩ => rfl))

/-- The first rectifier's other operand is the word of `0.0` everywhere. -/
theorem zero1_apply (i : S50000x256.Idx) : val_main_call0_v0 (F := Ideal) i = Cert.Spec.z0 := by
  rw [val_main_call0_v0_apply, val_main_call0_cst_apply]; rfl

/-- The first rectified dense layer at `(r, q)`: row `r` of the node's features plus its neighbour sum, against
    column `q` of the weights, plus the bias, rectified. -/
theorem layer1_apply (x0 : (⟨S50000x128, .f32⟩ : BufTy).Contents (Elt Ideal)) (x1 : (⟨S2x600000, .i32⟩ : BufTy).Contents (Elt Ideal)) (x2 : (⟨S128x256, .f32⟩ : BufTy).Contents (Elt Ideal)) (x3 : (⟨S256, .f32⟩ : BufTy).Contents (Elt Ideal)) (r : Fin 50000) (q : Fin 256) :
    val_main_v19 (F := Ideal) x0 x1 x2 x3 (ix2 r q)
      = Cert.Spec.denseRelu (fun k : Fin 128 => x0 (ix2 r k) + val_main_v13 (F := Ideal) x0 x1 (ix2 r k))
          (fun (k : Fin 128) (n : Fin 256) => x2 (ix2 k n)) (fun n : Fin 256 => x3 (ix1 n)) q := by
  rw [val_main_v19_apply, val_main_v18_apply, val_main_v15_apply, bias1_apply, zero1_apply]
  unfold Cert.Spec.denseRelu Cert.Spec.dense
  show max ((∑ k : Fin 128, val_main_v14 (F := Ideal) x0 x1 (lidx_main_v15 (ix2 r q) k) * x2 (ridx_main_v15 (ix2 r q) k)) + x3 (ix1 q)) Cert.Spec.z0 = _
  refine congrArg (fun s => max (s + x3 (ix1 q)) Cert.Spec.z0) (Finset.sum_congr rfl fun k _ => ?_)
  have el : lidx_main_v15 (ix2 r q) k = ix2 r k :=
    funext fun a => Fin.ext (by match a with | ⟨0, _⟩ => rfl | ⟨1, _⟩ => rfl)
  have er : ridx_main_v15 (ix2 r q) k = ix2 k q :=
    funext fun a => Fin.ext (by match a with | ⟨0, _⟩ => rfl | ⟨1, _⟩ => rfl)
  rw [el, er, val_main_v14_apply]
  rfl

/-- The second bias, broadcast to all rows, reads its entry `q` in every row. -/
theorem bias2_apply (x5 : (⟨S256, .f32⟩ : BufTy).Contents (Elt Ideal)) (r : Fin 50000) (q : Fin 256) :
    val_main_v22 (F := Ideal) x5 (ix2 r q) = x5 (ix1 q) := by
  rw [val_main_v22_apply, val_main_v21_apply]
  exact congrArg x5 (funext fun a => Fin.ext (by match a with | ⟨0, _⟩ => rfl))

/-- The second rectifier's other operand is the word of `0.0` everywhere. -/
theorem zero2_apply (i : S50000x256.Idx) : val_main_call1_v0 (F := Ideal) i = Cert.Spec.z0 := by
  rw [val_main_call1_v0_apply, val_main_call1_cst_apply]; rfl

/-- Stage one at `(r, q)` is the specification's stage one of row `r`. -/
theorem stage1_apply (x0 : (⟨S50000x128, .f32⟩ : BufTy).Contents (Elt Ideal)) (x1 : (⟨S2x600000, .i32⟩ : BufTy).Contents (Elt Ideal)) (x2 : (⟨S128x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal))
    (r : Fin 50000) (q : Fin 256) :
    val_main_v24 (F := Ideal) x0 x1 x2 x3 x4 x5 (ix2 r q)
      = Cert.Spec.stage1 (fun k : Fin 128 => x0 (ix2 r k) + val_main_v13 (F := Ideal) x0 x1 (ix2 r k))
          (fun (k : Fin 128) (n : Fin 256) => x2 (ix2 k n)) (fun n : Fin 256 => x3 (ix1 n))
          (fun (k : Fin 256) (n : Fin 256) => x4 (ix2 k n)) (fun n : Fin 256 => x5 (ix1 n)) q := by
  rw [val_main_v24_apply, val_main_v23_apply, val_main_v20_apply, bias2_apply, zero2_apply]
  unfold Cert.Spec.stage1
  show max ((∑ k : Fin 256, val_main_v19 (F := Ideal) x0 x1 x2 x3 (lidx_main_v20 (ix2 r q) k) * x4 (ridx_main_v20 (ix2 r q) k)) + x5 (ix1 q)) Cert.Spec.z0
    = Cert.Spec.denseRelu _ _ _ q
  conv_rhs => unfold Cert.Spec.denseRelu Cert.Spec.dense
  refine congrArg (fun s => max (s + x5 (ix1 q)) Cert.Spec.z0) (Finset.sum_congr rfl fun k _ => ?_)
  have el : lidx_main_v20 (ix2 r q) k = ix2 r k :=
    funext fun a => Fin.ext (by match a with | ⟨0, _⟩ => rfl | ⟨1, _⟩ => rfl)
  have er : ridx_main_v20 (ix2 r q) k = ix2 k q :=
    funext fun a => Fin.ext (by match a with | ⟨0, _⟩ => rfl | ⟨1, _⟩ => rfl)
  rw [el, er, layer1_apply]
  rfl

/-! ## Stage two: 256 → 256 rectified, 256 → 16, log-softmax -/

/-- The third bias, broadcast to all rows, reads its entry `q` in every row. -/
theorem bias3_apply (x7 : (⟨S256, .f32⟩ : BufTy).Contents (Elt Ideal)) (r : Fin 50000) (q : Fin 256) :
    val_main_v38 (F := Ideal) x7 (ix2 r q) = x7 (ix1 q) := by
  rw [val_main_v38_apply, val_main_v37_apply]
  exact congrArg x7 (funext fun a => Fin.ext (by match a with | ⟨0, _⟩ => rfl))

/-- The third rectifier's other operand is the word of `0.0` everywhere. -/
theorem zero3_apply (i : S50000x256.Idx) : val_main_call2_v0 (F := Ideal) i = Cert.Spec.z0 := by
  rw [val_main_call2_v0_apply, val_main_call2_cst_apply]; rfl

/-- The second stage's rectified dense layer at `(r, q)`: row `r` of the first stage's result plus its neighbour sum,
    against column `q` of the weights, plus the bias, rectified. -/
theorem layer3_apply (x0 : (⟨S50000x128, .f32⟩ : BufTy).Contents (Elt Ideal)) (x1 : (⟨S2x600000, .i32⟩ : BufTy).Contents (Elt Ideal)) (x2 : (⟨S128x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (r : Fin 50000) (q : Fin 256) :
    val_main_v40 (F := Ideal) x0 x1 x2 x3 x4 x5 x6 x7 (ix2 r q)
      = Cert.Spec.denseRelu (fun k : Fin 256 => val_main_v24 (F := Ideal) x0 x1 x2 x3 x4 x5 (ix2 r k) + val_main_v34 (F := Ideal) x0 x1 x2 x3 x4 x5 (ix2 r k))
          (fun (k : Fin 256) (n : Fin 256) => x6 (ix2 k n)) (fun n : Fin 256 => x7 (ix1 n)) q := by
  rw [val_main_v40_apply, val_main_v39_apply, val_main_v36_apply, bias3_apply, zero3_apply]
  unfold Cert.Spec.denseRelu Cert.Spec.dense
  show max ((∑ k : Fin 256, val_main_v35 (F := Ideal) x0 x1 x2 x3 x4 x5 (lidx_main_v36 (ix2 r q) k) * x6 (ridx_main_v36 (ix2 r q) k)) + x7 (ix1 q)) Cert.Spec.z0 = _
  refine congrArg (fun s => max (s + x7 (ix1 q)) Cert.Spec.z0) (Finset.sum_congr rfl fun k _ => ?_)
  have el : lidx_main_v36 (ix2 r q) k = ix2 r k :=
    funext fun a => Fin.ext (by match a with | ⟨0, _⟩ => rfl | ⟨1, _⟩ => rfl)
  have er : ridx_main_v36 (ix2 r q) k = ix2 k q :=
    funext fun a => Fin.ext (by match a with | ⟨0, _⟩ => rfl | ⟨1, _⟩ => rfl)
  rw [el, er, val_main_v35_apply]
  rfl

/-- The last bias, broadcast to all rows, reads its entry `q` in every row. -/
theorem bias4_apply (x9 : (⟨S16, .f32⟩ : BufTy).Contents (Elt Ideal)) (r : Fin 50000) (q : Fin 16) :
    val_main_v43 (F := Ideal) x9 (ix2 r q) = x9 (ix1 q) := by
  rw [val_main_v43_apply, val_main_v42_apply]
  exact congrArg x9 (funext fun a => Fin.ext (by match a with | ⟨0, _⟩ => rfl))

/-- A node's class scores: the reference's last dense layer at `(r, q)`. -/
theorem logits_apply (x0 : (⟨S50000x128, .f32⟩ : BufTy).Contents (Elt Ideal)) (x1 : (⟨S2x600000, .i32⟩ : BufTy).Contents (Elt Ideal)) (x2 : (⟨S128x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x16, .f32⟩ : BufTy).Contents (Elt Ideal)) (x9 : (⟨S16, .f32⟩ : BufTy).Contents (Elt Ideal)) (r : Fin 50000) (q : Fin 16) :
    val_main_v44 (F := Ideal) x0 x1 x2 x3 x4 x5 x6 x7 x8 x9 (ix2 r q)
      = Cert.Spec.logits (fun k : Fin 256 => val_main_v24 (F := Ideal) x0 x1 x2 x3 x4 x5 (ix2 r k) + val_main_v34 (F := Ideal) x0 x1 x2 x3 x4 x5 (ix2 r k))
          (fun (k : Fin 256) (n : Fin 256) => x6 (ix2 k n)) (fun n : Fin 256 => x7 (ix1 n))
          (fun (k : Fin 256) (n : Fin 16) => x8 (ix2 k n)) (fun n : Fin 16 => x9 (ix1 n)) q := by
  rw [val_main_v44_apply, val_main_v41_apply, bias4_apply]
  unfold Cert.Spec.logits
  show (∑ k : Fin 256, val_main_v40 (F := Ideal) x0 x1 x2 x3 x4 x5 x6 x7 (lidx_main_v41 (ix2 r q) k) * x8 (ridx_main_v41 (ix2 r q) k)) + x9 (ix1 q)
    = Cert.Spec.dense _ _ _ q
  conv_rhs => unfold Cert.Spec.dense
  refine congrArg (fun s => s + x9 (ix1 q)) (Finset.sum_congr rfl fun k _ => ?_)
  have el : lidx_main_v41 (ix2 r q) k = ix2 r k :=
    funext fun a => Fin.ext (by match a with | ⟨0, _⟩ => rfl | ⟨1, _⟩ => rfl)
  have er : ridx_main_v41 (ix2 r q) k = ix2 k q :=
    funext fun a => Fin.ext (by match a with | ⟨0, _⟩ => rfl | ⟨1, _⟩ => rfl)
  rw [el, er, layer3_apply]

/-- Row `r` with class `k` put back on the reduced axis is the entry `(r, k)`. -/
theorem lift_row (h : (⟨2, ![50000, 16]⟩ : Shape).Reduces [1] (⟨1, ![50000]⟩ : Shape)) (r : Fin 50000) (k : Fin 16) :
    h.lift (ix1 r) k = ix2 r k :=
  funext fun c => Fin.ext (by match c with | ⟨0, _⟩ => rfl | ⟨1, _⟩ => rfl)

/-- The reference's row maximum at row `r`: the fold of `max` from `-∞` over the row's 16 scores; the further
    maximum with `-∞` changes nothing. -/
theorem rowMax_apply (x0 : (⟨S50000x128, .f32⟩ : BufTy).Contents (Elt Ideal)) (x1 : (⟨S2x600000, .i32⟩ : BufTy).Contents (Elt Ideal)) (x2 : (⟨S128x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x16, .f32⟩ : BufTy).Contents (Elt Ideal)) (x9 : (⟨S16, .f32⟩ : BufTy).Contents (Elt Ideal)) (r : Fin 50000) :
    val_main_call3_v2 (F := Ideal) x0 x1 x2 x3 x4 x5 x6 x7 x8 x9 (ix1 r)
      = Cert.Spec.rowMax (fun n : Fin 16 => val_main_v44 (F := Ideal) x0 x1 x2 x3 x4 x5 x6 x7 x8 x9 (ix2 r n)) := by
  have hred : (⟨2, ![50000, 16]⟩ : Shape).Reduces [1] (⟨1, ![50000]⟩ : Shape) := by decide
  have h0 : val_main_call3_v0 (F := Ideal) x0 x1 x2 x3 x4 x5 x6 x7 x8 x9 (ix1 r)
      = Cert.Spec.rowMax (fun n : Fin 16 => val_main_v44 (F := Ideal) x0 x1 x2 x3 x4 x5 x6 x7 x8 x9 (ix2 r n)) := by
    unfold val_main_call3_v0
    refine (Host.reduce_eq_fold_single (α := Ideal .f32) (s := S50000x16) (t := S50000) (a := 1) FloatOps.maximumf
      (val_main_v44 (F := Ideal) x0 x1 x2 x3 x4 x5 x6 x7 x8 x9) (val_main_call3_cst (F := Ideal)) _ hred _ (ix1 r)).trans ?_
    unfold Cert.Spec.rowMax
    have hf : (val_main_v44 (F := Ideal) x0 x1 x2 x3 x4 x5 x6 x7 x8 x9 ∘ hred.lift (ix1 r))
        = fun n : Fin 16 => val_main_v44 (F := Ideal) x0 x1 x2 x3 x4 x5 x6 x7 x8 x9 (ix2 r n) :=
      funext fun k => congrArg (val_main_v44 (F := Ideal) x0 x1 x2 x3 x4 x5 x6 x7 x8 x9) (lift_row hred r k)
    exact congrArg (fun f => Finset.fold max Cert.Spec.ninf f (Finset.univ : Finset (Fin 16))) hf
  rw [val_main_call3_v2_apply, val_main_call3_v1_apply, val_main_call3_cst_0_apply, h0]
  exact Cert.Spec.max_fold_max_self _ _ _

/-- A node's scores less their maximum: the reference's first subtraction at `(r, q)` (the row maximum, kept as a
    column, is read back in every entry of its row). -/
theorem shifted_apply (x0 : (⟨S50000x128, .f32⟩ : BufTy).Contents (Elt Ideal)) (x1 : (⟨S2x600000, .i32⟩ : BufTy).Contents (Elt Ideal)) (x2 : (⟨S128x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x16, .f32⟩ : BufTy).Contents (Elt Ideal)) (x9 : (⟨S16, .f32⟩ : BufTy).Contents (Elt Ideal)) (r : Fin 50000) (q : Fin 16) :
    val_main_call3_v5 (F := Ideal) x0 x1 x2 x3 x4 x5 x6 x7 x8 x9 (ix2 r q)
      = val_main_v44 (F := Ideal) x0 x1 x2 x3 x4 x5 x6 x7 x8 x9 (ix2 r q) - Cert.Spec.rowMax (fun n : Fin 16 => val_main_v44 (F := Ideal) x0 x1 x2 x3 x4 x5 x6 x7 x8 x9 (ix2 r n)) := by
  rw [val_main_call3_v5_apply, val_main_call3_v4_apply, val_main_call3_v3_apply]
  have e : idx_main_call3_v3 (idx_main_call3_v4 (ix2 r q)) = ix1 r :=
    funext fun a => Fin.ext (by match a with | ⟨0, _⟩ => rfl)
  rw [e, rowMax_apply]
  rfl

/-- The sum of the exponentials of row `r`'s shifted scores; it starts from the word of `0.0`, which is zero. -/
theorem expSum_apply (x0 : (⟨S50000x128, .f32⟩ : BufTy).Contents (Elt Ideal)) (x1 : (⟨S2x600000, .i32⟩ : BufTy).Contents (Elt Ideal)) (x2 : (⟨S128x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x16, .f32⟩ : BufTy).Contents (Elt Ideal)) (x9 : (⟨S16, .f32⟩ : BufTy).Contents (Elt Ideal)) (r : Fin 50000) :
    val_main_call3_v7 (F := Ideal) x0 x1 x2 x3 x4 x5 x6 x7 x8 x9 (ix1 r)
      = ∑ k : Fin 16, Ideal.exp (val_main_v44 (F := Ideal) x0 x1 x2 x3 x4 x5 x6 x7 x8 x9 (ix2 r k) - Cert.Spec.rowMax (fun n : Fin 16 => val_main_v44 (F := Ideal) x0 x1 x2 x3 x4 x5 x6 x7 x8 x9 (ix2 r n))) := by
  rw [val_main_call3_v7_apply, val_main_call3_cst_1_apply]
  refine (congrArg (· + _) ((Ideal.ofBits_def (φ := .f32) _).trans Ideal.ofBits_zero_f32)).trans ?_
  rw [zero_add]
  refine Finset.sum_congr rfl fun k _ => ?_
  have e : idx_main_call3_v7 (ix1 r) k = ix2 r k :=
    funext fun a => Fin.ext (by match a with | ⟨0, _⟩ => rfl | ⟨1, _⟩ => rfl)
  rw [e, val_main_call3_v6_apply, shifted_apply]
  rfl

/-- Stage two at `(r, q)` is the specification's stage two of row `r`. -/
theorem stage2_apply (x0 : (⟨S50000x128, .f32⟩ : BufTy).Contents (Elt Ideal)) (x1 : (⟨S2x600000, .i32⟩ : BufTy).Contents (Elt Ideal)) (x2 : (⟨S128x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x16, .f32⟩ : BufTy).Contents (Elt Ideal)) (x9 : (⟨S16, .f32⟩ : BufTy).Contents (Elt Ideal))
    (r : Fin 50000) (q : Fin 16) :
    val_main_v45 (F := Ideal) x0 x1 x2 x3 x4 x5 x6 x7 x8 x9 (ix2 r q)
      = Cert.Spec.stage2 (fun k : Fin 256 => val_main_v24 (F := Ideal) x0 x1 x2 x3 x4 x5 (ix2 r k) + val_main_v34 (F := Ideal) x0 x1 x2 x3 x4 x5 (ix2 r k))
          (fun (k : Fin 256) (n : Fin 256) => x6 (ix2 k n)) (fun n : Fin 256 => x7 (ix1 n))
          (fun (k : Fin 256) (n : Fin 16) => x8 (ix2 k n)) (fun n : Fin 16 => x9 (ix1 n)) q := by
  have ho : (fun n : Fin 16 => val_main_v44 (F := Ideal) x0 x1 x2 x3 x4 x5 x6 x7 x8 x9 (ix2 r n))
      = Cert.Spec.logits (fun k : Fin 256 => val_main_v24 (F := Ideal) x0 x1 x2 x3 x4 x5 (ix2 r k) + val_main_v34 (F := Ideal) x0 x1 x2 x3 x4 x5 (ix2 r k))
          (fun (k : Fin 256) (n : Fin 256) => x6 (ix2 k n)) (fun n : Fin 256 => x7 (ix1 n))
          (fun (k : Fin 256) (n : Fin 16) => x8 (ix2 k n)) (fun n : Fin 16 => x9 (ix1 n)) :=
    funext fun n => logits_apply x0 x1 x2 x3 x4 x5 x6 x7 x8 x9 r n
  unfold Cert.Spec.stage2
  rw [← ho]
  rw [val_main_v45_apply, val_main_call3_v10_apply, val_main_call3_v9_apply, val_main_call3_v8_apply]
  have e : idx_main_call3_v8 (idx_main_call3_v10 (ix2 r q)) = ix1 r :=
    funext fun a => Fin.ext (by match a with | ⟨0, _⟩ => rfl)
  rw [e, expSum_apply, shifted_apply]
  rfl

end Cert.ReferenceIdeal.Stage

end
-- ==== Proof.KValue.lean ====
/-
  The idealized kernel's result as ONE function of its arguments.

  Segment by segment: the first host stretch leaves the first neighbour sum and the bias rows; the first region
  leaves the stage-one function of every row; the second host stretch forms the second neighbour sum from that
  array; the second region leaves the stage-two function of every row.  Each of these is the reference's own
  stage value of the same arguments: the neighbour sums by the same host operations, the two stages because
  both programs apply the same row function (a product entry is the same finite sum whatever the tiling).
-/
import proofs.«121736_j41652592836734_1_alg».proof.Proof.KRun
import proofs.«121736_j41652592836734_1_alg».proof.Proof.KHost
import proofs.«121736_j41652592836734_1_alg».proof.Proof.KRegion0
import proofs.«121736_j41652592836734_1_alg».proof.Proof.KRegion1
import proofs.«121736_j41652592836734_1_alg».proof.Proof.RefStage
import Idealize.ShloMosaic.Lib.ValueLayout

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem
open Cert.ReferenceIdeal.Read (val_main_v1 val_main_v3 val_main_v13 val_main_v24 val_main_v34 val_main_v45)

/-- A vector reshaped to a one-row matrix, read in that row. -/
theorem row_256 (x : S256.Idx → EReal) (n : Fin 256) :
    shapeCast S1x256 x shapeCasts_S256_S1x256 (ix2 (0 : Fin 1) n) = x (ix1 n) :=
  shapeCast_apply x shapeCasts_S256_S1x256 (ix2 (0 : Fin 1) n) (ix1 n)
    (by rw [Shape.rowMajor_val_two, Shape.rowMajor_val_one]; show n.val = 0 * 256 + n.val; omega)

theorem row_16 (x : S16.Idx → EReal) (n : Fin 16) :
    shapeCast S1x16 x shapeCasts_S16_S1x16 (ix2 (0 : Fin 1) n) = x (ix1 n) :=
  shapeCast_apply x shapeCasts_S16_S1x16 (ix2 (0 : Fin 1) n) (ix1 n)
    (by rw [Shape.rowMajor_val_two, Shape.rowMajor_val_one]; show n.val = 0 * 16 + n.val; omega)

section

variable (m : (ℓ : Loc nD τ sig) → Buf (Elt Ideal) ℓ) (ρ : Dev nD → PrngReg)

/-! ## The first region's entry contents -/

theorem v1_arg0 (c : Dev nD) : V1 m ρ c main_arg0 = m ((c.tc : Thread nD τ).loc main_arg0) := HostLines.pre0_arg0 (W0 m ρ c)
theorem v1_arg2 (c : Dev nD) : V1 m ρ c main_arg2 = m ((c.tc : Thread nD τ).loc main_arg2) := HostLines.pre0_arg2 (W0 m ρ c)
theorem v1_arg4 (c : Dev nD) : V1 m ρ c main_arg4 = m ((c.tc : Thread nD τ).loc main_arg4) := HostLines.pre0_arg4 (W0 m ρ c)
theorem v1_agg (c : Dev nD) : V1 m ρ c main_v13
    = val_main_v13 (F := Ideal) (m ((c.tc : Thread nD τ).loc main_arg0)) (m ((c.tc : Thread nD τ).loc main_arg1)) :=
  HostLines.pre0_agg (W0 m ρ c)
theorem v1_b1 (c : Dev nD) : V1 m ρ c main_v14
    = shapeCast S1x256 (m ((c.tc : Thread nD τ).loc main_arg3) : S256.Idx → EReal) shapeCasts_S256_S1x256 := HostLines.pre0_b1 (W0 m ρ c)
theorem v1_b2 (c : Dev nD) : V1 m ρ c main_v15
    = shapeCast S1x256 (m ((c.tc : Thread nD τ).loc main_arg5) : S256.Idx → EReal) shapeCasts_S256_S1x256 := HostLines.pre0_b2 (W0 m ρ c)

/-- After the first region its output array is the reference's first-stage value of the arguments. -/
theorem stage1_arr (hpay0 : Region0.PayloadAt) (c : Dev nD) : (dat0 (F := Ideal) (V1 m ρ) c).arrAt 6 cfg0.N
    = val_main_v24 (F := Ideal) (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5)) := by
  rw [Region0.final (V1 m ρ) hpay0 c, v1_arg0, v1_agg, v1_arg2, v1_b1, v1_arg4, v1_b2]
  funext i
  obtain ⟨r, q, rfl⟩ : ∃ (r : Fin 50000) (q : Fin 256), i = ix2 r q := ⟨i 0, i 1, eq_ix2 i⟩
  refine Eq.trans ?_ (Cert.ReferenceIdeal.Stage.stage1_apply _ _ _ _ _ _ r q).symm
  unfold Region0.G
  show Cert.Spec.stage1 _ _ _ _ _ q = Cert.Spec.stage1 _ _ _ _ _ q
  refine congrArg (fun f : Fin 256 → EReal => f q) ?_
  refine congr (congr (congr (congr (congrArg Cert.Spec.stage1 ?_) ?_) ?_) ?_) ?_
  · rfl
  · rfl
  · funext n; exact row_256 _ n
  · rfl
  · funext n; exact row_256 _ n

/-! ## The boundary between the regions -/

/-- The first stage's output buffer at the first region's exit. -/
theorem w2_h (hpay0 : Region0.PayloadAt) (c : Dev nD) : W2 m ρ c (Proc.devRef .tc main_v16)
    = val_main_v24 (F := Ideal) (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5)) :=
  (W2_arr m ρ c 6).trans (stage1_arr m ρ hpay0 c)

theorem w2_src (c : Dev nD) : W2 m ρ c (Proc.devRef .tc main_v1) = val_main_v1 (F := Ideal) (m ((c.tc : Thread nD τ).loc main_arg1)) :=
  (W2_of_ne m ρ c main_v1 (by decide)).trans (HostLines.pre0_src (W0 m ρ c))
theorem w2_dst (c : Dev nD) : W2 m ρ c (Proc.devRef .tc main_v3) = val_main_v3 (F := Ideal) (m ((c.tc : Thread nD τ).loc main_arg1)) :=
  (W2_of_ne m ρ c main_v3 (by decide)).trans (HostLines.pre0_dst (W0 m ρ c))
theorem w2_arg6 (c : Dev nD) : W2 m ρ c (Proc.devRef .tc main_arg6) = m ((c.tc : Thread nD τ).loc main_arg6) :=
  (W2_of_ne m ρ c main_arg6 (by decide)).trans (HostLines.pre0_arg6 (W0 m ρ c))
theorem w2_arg7 (c : Dev nD) : W2 m ρ c (Proc.devRef .tc main_arg7) = m ((c.tc : Thread nD τ).loc main_arg7) :=
  (W2_of_ne m ρ c main_arg7 (by decide)).trans (HostLines.pre0_arg7 (W0 m ρ c))
theorem w2_arg8 (c : Dev nD) : W2 m ρ c (Proc.devRef .tc main_arg8) = m ((c.tc : Thread nD τ).loc main_arg8) :=
  (W2_of_ne m ρ c main_arg8 (by decide)).trans (HostLines.pre0_arg8 (W0 m ρ c))
theorem w2_arg9 (c : Dev nD) : W2 m ρ c (Proc.devRef .tc main_arg9) = m ((c.tc : Thread nD τ).loc main_arg9) :=
  (W2_of_ne m ρ c main_arg9 (by decide)).trans (HostLines.pre0_arg9 (W0 m ρ c))

/-! ## The second region's entry contents -/

theorem v3_h (hpay0 : Region0.PayloadAt) (c : Dev nD) : V3 m ρ c main_v16
    = val_main_v24 (F := Ideal) (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5)) :=
  (HostLines.pre1_h (W2 m ρ c)).trans (w2_h m ρ hpay0 c)

/-- The second neighbour sum is the reference's. -/
theorem v3_agg (hpay0 : Region0.PayloadAt) (c : Dev nD) : V3 m ρ c main_v26
    = val_main_v34 (F := Ideal) (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5)) := by
  refine (HostLines.pre1_agg (W2 m ρ c)).trans ?_
  rw [w2_h m ρ hpay0 c, w2_src m ρ c, w2_dst m ρ c]
  exact HostLines.agg2_ref _ _ _ _ _ _

theorem v3_arg6 (c : Dev nD) : V3 m ρ c main_arg6 = m ((c.tc : Thread nD τ).loc main_arg6) :=
  (HostLines.pre1_arg6 (W2 m ρ c)).trans (w2_arg6 m ρ c)
theorem v3_arg8 (c : Dev nD) : V3 m ρ c main_arg8 = m ((c.tc : Thread nD τ).loc main_arg8) :=
  (HostLines.pre1_arg8 (W2 m ρ c)).trans (w2_arg8 m ρ c)
theorem v3_b1 (c : Dev nD) : V3 m ρ c main_v27
    = shapeCast S1x256 (m ((c.tc : Thread nD τ).loc main_arg7) : S256.Idx → EReal) shapeCasts_S256_S1x256 := by
  refine (HostLines.pre1_b1 (W2 m ρ c)).trans ?_
  rw [w2_arg7 m ρ c]
theorem v3_b2 (c : Dev nD) : V3 m ρ c main_v28
    = shapeCast S1x16 (m ((c.tc : Thread nD τ).loc main_arg9) : S16.Idx → EReal) shapeCasts_S16_S1x16 := by
  refine (HostLines.pre1_b2 (W2 m ρ c)).trans ?_
  rw [w2_arg9 m ρ c]

/-- THE RESULT: after the second region the result buffer holds the reference's result value of the arguments. -/
theorem result (hpay0 : Region0.PayloadAt) (hpay1 : Region1.PayloadAt) (c : Dev nD) : W4 m ρ c (Proc.devRef .tc main_v29)
    = val_main_v45 (F := Ideal) (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7))
        (m ((c.tc : Thread nD τ).loc main_arg8)) (m ((c.tc : Thread nD τ).loc main_arg9)) := by
  refine (W4_arr m ρ c 6).trans ?_
  rw [Region1.final (V3 m ρ) hpay1 c, v3_h m ρ hpay0 c, v3_agg m ρ hpay0 c, v3_arg6, v3_b1, v3_arg8, v3_b2]
  funext i
  obtain ⟨r, q, rfl⟩ : ∃ (r : Fin 50000) (q : Fin 16), i = ix2 r q := ⟨i 0, i 1, eq_ix2 i⟩
  refine Eq.trans ?_ (Cert.ReferenceIdeal.Stage.stage2_apply _ _ _ _ _ _ _ _ _ _ r q).symm
  unfold Region1.G
  show Cert.Spec.stage2 _ _ _ _ _ q = Cert.Spec.stage2 _ _ _ _ _ q
  refine congrArg (fun f : Fin 16 → EReal => f q) ?_
  refine congr (congr (congr (congr (congrArg Cert.Spec.stage2 ?_) ?_) ?_) ?_) ?_
  · rfl
  · rfl
  · funext n; exact row_256 _ n
  · rfl
  · funext n; exact row_16 _ n

/-- THE RUN, READ: every weakly fair execution of the idealized kernel terminates without a fault, its result at the
    reference's result value of the arguments, the arguments unchanged. -/
theorem run (hpay0 : Region0.PayloadAt) (hpay1 : Region1.PayloadAt) :
    θ_run defs (onTc (τ := τ) (main (F := Ideal))) ⟨m, fun _ => 0, ρ⟩ (fun r => ∀ c : Dev nD,
      r.2.mem ((c.tc : Thread nD τ).loc main_v29)
        = val_main_v45 (F := Ideal) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (result m ρ hpay0 hpay1 c), (h c).2⟩) (Named.run_named (F := Ideal) m ρ)

end

end Cert.KernelIdeal.Whole

end
-- ==== Proof.lean ====
/-
  A two-layer graph-isomorphism network with a log-softmax head, on 50000 nodes and 600000 edges: the Pallas
  kernel (two pipelined regions over blocks of 2000 rows, with the neighbour sums formed on the host by a gather
  and a scatter-add) against the plain jnp reference.

  Both programs form each neighbour sum with the same host operations on the same operands, so those sums are one
  array and are never opened.  What differs is only how the dense layers are laid out: the kernel multiplies one
  block of 2000 rows at a time on bf16 copies of its operands and accumulates in f32; the reference multiplies all
  50000 rows at once.  On the extended reals a change of float format is the identity and a matrix product's
  entry is the finite sum over the contracted index, so both compute, row by row, the same function
  (`Cert.Spec.stage1`, `Cert.Spec.stage2`); the log-softmax is the same chain of operations on both sides, the
  reference's extra maximum against `-∞` changing nothing.  No step uses that the inputs are finite.

  The three frames: the two kernels' are the generated frame certificates; the reference's is its run with the
  result dropped.  The idealization rewrote no operation, so `preserves` is `True`.
-/
import proofs.«121736_j41652592836734_1_alg».proof.Defs
import proofs.«121736_j41652592836734_1_alg».proof.Proof.Gen.Kernel
import proofs.«121736_j41652592836734_1_alg».proof.Proof.Gen.Kernel.Skeleton
import proofs.«121736_j41652592836734_1_alg».proof.Proof.Gen.Kernel.Launch
import proofs.«121736_j41652592836734_1_alg».proof.Proof.Gen.Kernel.Points
import proofs.«121736_j41652592836734_1_alg».proof.Proof.Gen.Kernel.Frame
import proofs.«121736_j41652592836734_1_alg».proof.Proof.Gen.KernelIdeal
import proofs.«121736_j41652592836734_1_alg».proof.Proof.Gen.KernelIdeal.Skeleton
import proofs.«121736_j41652592836734_1_alg».proof.Proof.Gen.KernelIdeal.Launch
import proofs.«121736_j41652592836734_1_alg».proof.Proof.Gen.KernelIdeal.Points
import proofs.«121736_j41652592836734_1_alg».proof.Proof.Gen.KernelIdeal.Frame
import proofs.«121736_j41652592836734_1_alg».proof.Proof.Gen.ReferenceIdeal
import proofs.«121736_j41652592836734_1_alg».proof.Proof.Gen.Pre_finite_inputs
import proofs.«121736_j41652592836734_1_alg».proof.Proof.RefRun
import proofs.«121736_j41652592836734_1_alg».proof.Proof.RefRead
import proofs.«121736_j41652592836734_1_alg».proof.Proof.KPay
import proofs.«121736_j41652592836734_1_alg».proof.Proof.KValue
import Idealize.ShloMosaic.Adequacy
import Idealize.ShloMosaic.Init

noncomputable section

namespace Cert.Proof

open Idealize.ShloMosaic Idealize.SL.Sem

theorem frame_kernel : @Cert.frame_Kernel Cert.Kernel.Gen.facts Cert.Pre_finite_inputs.Gen.facts :=
  fun m ρ _ => Cert.Kernel.Gen.frame m ρ

theorem frame_kernel_ideal : @Cert.frame_KernelIdeal Cert.KernelIdeal.Gen.facts Cert.Pre_finite_inputs.Gen.facts :=
  fun m ρ _ => Cert.KernelIdeal.Gen.frame m ρ

/-- The reference has no kernel: its frame is its run with the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- From memories that agree on the ten arguments both programs end with the reference's result value of those
    arguments: the kernel by its run read segment by segment, the reference by its run read back. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, Cert.KernelIdeal.Whole.run m ρ Cert.KernelIdeal.Pay.pay0_apply Cert.KernelIdeal.Pay.pay1_apply, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v45_eq m' c, h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
